-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S100000x128 : Shape := ⟨2, ![100000, 128]⟩
abbrev S20000x128 : Shape := ⟨2, ![20000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S20000x128 : S_.BroadcastsInDim S20000x128 (![] : Fin 0 → Fin S20000x128.rank)
  reducesTo_S20000x128_S_d0_1 : S20000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg20 : FVec F S64 .f32) (main_v63 : IVec S_ 1) (main_v67 : IVec S_ 1) : IVec S_ 1 :=
  let main_v68 : IVec S_ 1 := andi main_v63 main_v67
  let main_v69 : FVec F S64 .f32 := Host.absf main_arg20
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg17 : FVec F S128x64 .f32) (main_arg18 : FVec F S64 .f32) (main_arg19 : FVec F S128x64 .f32) (main_arg20 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S128x64 .f32 := Host.absf main_arg17
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg18
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S128x64 .f32 := Host.absf main_arg19
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg20 main_v63 main_v67

def fn_part2 {F : FTy → Type} [FloatOps F] (main_arg13 : FVec F S128x128 .f32) (main_arg14 : FVec F S128 .f32) (main_arg15 : FVec F S128x64 .f32) (main_arg16 : FVec F S64 .f32) (main_arg17 : FVec F S128x64 .f32) (main_arg18 : FVec F S64 .f32) (main_arg19 : FVec F S128x64 .f32) (main_arg20 : FVec F S64 .f32) (main_v33 : IVec S_ 1) : IVec S_ 1 :=
  let main_v34 : FVec F S128x128 .f32 := Host.absf main_arg13
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg14
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg15
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg16
  let main_cst_18 : FVec F S_ .f32 := constant S_ .f32 0x7F800000#32
  let main_v50 : FVec F S64 .f32 := broadcastInDim S64 ![] bcast_S_S64 main_cst_18
  fn_part3 (F := F) main_arg17 main_arg18 main_arg19 main_arg20 main_v48 main_v49 main_v50

def fn_part1 {F : FTy → Type} [FloatOps F] (main_arg10 : FVec F S128 .f32) (main_arg11 : FVec F S128x128 .f32) (main_arg12 : FVec F S128 .f32) (main_arg13 : FVec F S128x128 .f32) (main_arg14 : FVec F S128 .f32) (main_arg15 : FVec F S128x64 .f32) (main_arg16 : FVec F S64 .f32) (main_arg17 : FVec F S128x64 .f32) (main_arg18 : FVec F S64 .f32) (main_arg19 : FVec F S128x64 .f32) (main_arg20 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg10
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg11
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg13 main_arg14 main_arg15 main_arg16 main_arg17 main_arg18 main_arg19 main_arg20 main_v33

def fn {F : FTy → Type} [FloatOps F] (main_arg0 : FVec F S50000x128 .f32) (main_arg1 : FVec F S100000x128 .f32) (main_arg2 : FVec F S20000x128 .f32) (main_arg3 : IVec S1600000 32) (main_arg4 : IVec S1600000 32) (main_arg5 : IVec S100000 32) (main_arg6 : IVec S100000 32) (main_arg7 : IVec S100000 32) (main_arg8 : IVec S100000 32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x64 .f32) (main_arg16 : FVec F S64 .f32) (main_arg17 : FVec F S128x64 .f32) (main_arg18 : FVec F S64 .f32) (main_arg19 : FVec F S128x64 .f32) (main_arg20 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S20000x128 .f32 := Host.absf main_arg2
  let main_cst_2 : FVec F S_ .f32 := constant S_ .f32 0x7F800000#32
  let main_v10 : FVec F S20000x128 .f32 := broadcastInDim S20000x128 ![] bcast_S_S20000x128 main_cst_2
  let main_v11 : IVec S20000x128 1 := cmpf .olt main_v9 main_v10
  let main_c_3 : IVec S_ 1 := constantI S_ 1 1#1
  let main_v12 : IVec S_ 1 := (fun x v => Host.reduce IntOp.andi x v reducesTo_S20000x128_S_d0_1 h_S_) main_v11 main_c_3
  let main_v13 : IVec S_ 1 := andi main_v8 main_v12
  let main_v14 : FVec F S128x128 .f32 := Host.absf main_arg9
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg10 main_arg11 main_arg12 main_arg13 main_arg14 main_arg15 main_arg16 main_arg17 main_arg18 main_arg19 main_arg20 main_v13 main_v16
-- ==== Kernel.lean ====
abbrev S50000x128 : Shape := ⟨2, ![50000, 128]⟩
abbrev S100000x128 : Shape := ⟨2, ![100000, 128]⟩
abbrev S20000x128 : Shape := ⟨2, ![20000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S100000x1 : Shape := ⟨2, ![100000, 1]⟩
abbrev S20000 : Shape := ⟨1, ![20000]⟩
abbrev S20000x1 : Shape := ⟨2, ![20000, 1]⟩
abbrev S170000x64 : Shape := ⟨2, ![170000, 64]⟩
abbrev S1x128 : Shape := ⟨2, ![1, 128]⟩
abbrev S1x64 : Shape := ⟨2, ![1, 64]⟩
abbrev S5000x128 : Shape := ⟨2, ![5000, 128]⟩
abbrev S5000x1 : Shape := ⟨2, ![5000, 1]⟩
abbrev S5000x64 : Shape := ⟨2, ![5000, 64]⟩

abbrev nBuf : Space → Nat
  | .hbm => 143
  | .vmem => 36
  | .smem => 0
  | _ => 0

abbrev hbmTy0_0 (i : Nat) : BufTy := match i % 128 with
  | 0 => ⟨S50000x128, .f32⟩
  | 1 => ⟨S100000x128, .f32⟩
  | 2 => ⟨S20000x128, .f32⟩
  | 3 => ⟨S1600000, .i32⟩
  | 4 => ⟨S1600000, .i32⟩
  | 5 => ⟨S100000, .i32⟩
  | 6 => ⟨S100000, .i32⟩
  | 7 => ⟨S100000, .i32⟩
  | 8 => ⟨S100000, .i32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x64, .f32⟩
  | 16 => ⟨S64, .f32⟩
  | 17 => ⟨S128x64, .f32⟩
  | 18 => ⟨S64, .f32⟩
  | 19 => ⟨S128x64, .f32⟩
  | 20 => ⟨S64, .f32⟩
  | 21 => ⟨S_, .f32⟩
  | 22 => ⟨S1600000, .f32⟩
  | 23 => ⟨S_, .f32⟩
  | 24 => ⟨S50000, .f32⟩
  | 25 => ⟨S1600000x1, .i32⟩
  | 26 => ⟨S50000, .f32⟩
  | 27 => ⟨S_, .f32⟩
  | 28 => ⟨S_, .f32⟩
  | 29 => ⟨S50000, .f32⟩
  | 30 => ⟨S50000, .f32⟩
  | 31 => ⟨S_, .f32⟩
  | 32 => ⟨S50000, .f32⟩
  | 33 => ⟨S1600000x1, .i32⟩
  | 34 => ⟨S50000, .f32⟩
  | 35 => ⟨S_, .f32⟩
  | 36 => ⟨S_, .f32⟩
  | 37 => ⟨S50000, .f32⟩
  | 38 => ⟨S50000, .f32⟩
  | 39 => ⟨S50000, .f32⟩
  | 40 => ⟨S50000x1, .f32⟩
  | 41 => ⟨S50000x128, .f32⟩
  | 42 => ⟨S50000x128, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S_, .f32⟩
  | 53 => ⟨S50000x128, .f32⟩
  | 54 => ⟨S1600000x1, .i32⟩
  | 55 => ⟨S50000x128, .f32⟩
  | 56 => ⟨S50000, .f32⟩
  | 57 => ⟨S_, .f32⟩
  | 58 => ⟨S100000, .f32⟩
  | 59 => ⟨S_, .f32⟩
  | 60 => ⟨S100000, .f32⟩
  | 61 => ⟨S100000x1, .i32⟩
  | 62 => ⟨S100000, .f32⟩
  | 63 => ⟨S_, .f32⟩
  | 64 => ⟨S_, .f32⟩
  | 65 => ⟨S100000, .f32⟩
  | 66 => ⟨S100000, .f32⟩
  | 67 => ⟨S_, .f32⟩
  | 68 => ⟨S20000, .f32⟩
  | 69 => ⟨S100000x1, .i32⟩
  | 70 => ⟨S20000, .f32⟩
  | 71 => ⟨S_, .f32⟩
  | 72 => ⟨S_, .f32⟩
  | 73 => ⟨S20000, .f32⟩
  | 74 => ⟨S20000, .f32⟩
  | 75 => ⟨S100000, .f32⟩
  | 76 => ⟨S100000x1, .f32⟩
  | 77 => ⟨S100000x128, .f32⟩
  | 78 => ⟨S100000x128, .f32⟩
  | 79 => ⟨S_, .i32⟩
  | 80 => ⟨S100000, .i32⟩
  | 81 => ⟨S100000, .i1⟩
  | 82 => ⟨S_, .i32⟩
  | 83 => ⟨S100000, .i32⟩
  | 84 => ⟨S100000, .i32⟩
  | 85 => ⟨S100000, .i32⟩
  | 86 => ⟨S100000x1, .i32⟩
  | 87 => ⟨S100000x128, .f32⟩
  | 88 => ⟨S_, .f32⟩
  | 89 => ⟨S20000x128, .f32⟩
  | 90 => ⟨S100000x1, .i32⟩
  | 91 => ⟨S20000x128, .f32⟩
  | 92 => ⟨S20000, .f32⟩
  | 93 => ⟨S_, .f32⟩
  | 94 => ⟨S100000, .f32⟩
  | 95 => ⟨S_, .f32⟩
  | 96 => ⟨S20000, .f32⟩
  | 97 => ⟨S100000x1, .i32⟩
  | 98 => ⟨S20000, .f32⟩
  | 99 => ⟨S_, .f32⟩
  | 100 => ⟨S_, .f32⟩
  | 101 => ⟨S20000, .f32⟩
  | 102 => ⟨S20000, .f32⟩
  | 103 => ⟨S_, .f32⟩
  | 104 => ⟨S100000, .f32⟩
  | 105 => ⟨S100000x1, .i32⟩
  | 106 => ⟨S100000, .f32⟩
  | 107 => ⟨S_, .f32⟩
  | 108 => ⟨S_, .f32⟩
  | 109 => ⟨S100000, .f32⟩
  | 110 => ⟨S100000, .f32⟩
  | 111 => ⟨S20000, .f32⟩
  | 112 => ⟨S20000x1, .f32⟩
  | 113 => ⟨S20000x128, .f32⟩
  | 114 => ⟨S20000x128, .f32⟩
  | 115 => ⟨S_, .i32⟩
  | 116 => ⟨S100000, .i32⟩
  | 117 => ⟨S100000, .i1⟩
  | 118 => ⟨S_, .i32⟩
  | 119 => ⟨S100000, .i32⟩
  | 120 => ⟨S100000, .i32⟩
  | 121 => ⟨S100000, .i32⟩
  | 122 => ⟨S100000x1, .i32⟩
  | 123 => ⟨S100000x128, .f32⟩
  | 124 => ⟨S_, .f32⟩
  | 125 => ⟨S100000x128, .f32⟩
  | 126 => ⟨S100000x1, .i32⟩
  | 127 => ⟨S100000x128, .f32⟩
  | _ => ⟨S50000x128, .f32⟩

abbrev hbmTy0_1 (i : Nat) : BufTy := match i % 128 with
  | 0 => ⟨S100000, .f32⟩
  | 1 => ⟨S_, .f32⟩
  | 2 => ⟨S170000x64, .f32⟩
  | 3 => ⟨S1x128, .f32⟩
  | 4 => ⟨S1x64, .f32⟩
  | 5 => ⟨S50000x1, .f32⟩
  | 6 => ⟨S170000x64, .f32⟩
  | 7 => ⟨S1x128, .f32⟩
  | 8 => ⟨S1x64, .f32⟩
  | 9 => ⟨S20000x1, .f32⟩
  | 10 => ⟨S170000x64, .f32⟩
  | 11 => ⟨S1x128, .f32⟩
  | 12 => ⟨S1x64, .f32⟩
  | 13 => ⟨S100000x1, .f32⟩
  | 14 => ⟨S170000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S128x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S128x128, .f32⟩
  | .local _ .vmem, ⟨17, _⟩ => ⟨S1x128, .f32⟩
  | .local _ .vmem, ⟨18, _⟩ => ⟨S128x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x128, .f32⟩
  | .local _ .vmem, ⟨29, _⟩ => ⟨S1x128, .f32⟩
  | .local _ .vmem, ⟨30, _⟩ => ⟨S128x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_cst_0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_v4 : Ref sig .tc := ⟨.hbm, 30, rfl⟩
abbrev main_cst_2 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_c : Ref sig .tc := ⟨.hbm, 43, rfl⟩
abbrev main_v13 : Ref sig .tc := ⟨.hbm, 44, rfl⟩
abbrev main_v14 : Ref sig .tc := ⟨.hbm, 45, rfl⟩
abbrev main_c_4 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst_5 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_6 : Ref sig .tc := ⟨.hbm, 57, rfl⟩
abbrev main_v24 : Ref sig .tc := ⟨.hbm, 58, rfl⟩
abbrev main_cst_7 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst_8 : Ref sig .tc := ⟨.hbm, 63, rfl⟩
abbrev main_call2_v0 : Ref sig .tc := ⟨.hbm, 64, rfl⟩
abbrev main_call2_v1 : Ref sig .tc := ⟨.hbm, 65, rfl⟩
abbrev main_v28 : Ref sig .tc := ⟨.hbm, 66, rfl⟩
abbrev main_cst_9 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_cst_10 : Ref sig .tc := ⟨.hbm, 71, rfl⟩
abbrev main_call3_v0 : Ref sig .tc := ⟨.hbm, 72, rfl⟩
abbrev main_call3_v1 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_c_11 : Ref sig .tc := ⟨.hbm, 79, rfl⟩
abbrev main_v37 : Ref sig .tc := ⟨.hbm, 80, rfl⟩
abbrev main_v38 : Ref sig .tc := ⟨.hbm, 81, rfl⟩
abbrev main_c_12 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_cst_13 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_cst_14 : Ref sig .tc := ⟨.hbm, 93, rfl⟩
abbrev main_v48 : Ref sig .tc := ⟨.hbm, 94, rfl⟩
abbrev main_cst_15 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_cst_16 : Ref sig .tc := ⟨.hbm, 99, rfl⟩
abbrev main_call4_v0 : Ref sig .tc := ⟨.hbm, 100, rfl⟩
abbrev main_call4_v1 : Ref sig .tc := ⟨.hbm, 101, rfl⟩
abbrev main_v52 : Ref sig .tc := ⟨.hbm, 102, rfl⟩
abbrev main_cst_17 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_cst_18 : Ref sig .tc := ⟨.hbm, 107, rfl⟩
abbrev main_call5_v0 : Ref sig .tc := ⟨.hbm, 108, rfl⟩
abbrev main_call5_v1 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_c_19 : Ref sig .tc := ⟨.hbm, 115, rfl⟩
abbrev main_v61 : Ref sig .tc := ⟨.hbm, 116, rfl⟩
abbrev main_v62 : Ref sig .tc := ⟨.hbm, 117, rfl⟩
abbrev main_c_20 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_cst_21 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_cst_22 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c10_i32 : BitVec 32 := 10#32
  let v0 : BitVec 32 := Scalar.addi arg0 c10_i32
  let c0_i32 : BitVec 32 := 0#32
  let c0_i32_0 : BitVec 32 := 0#32
  ![v0.toNat, c0_i32.toNat]

def cc1_transform_7 (i : grid1.Coords) : Fin 2 → Nat :=
  let arg0 : BitVec 32 := BitVec.ofNat 32 (i 0).val
  let c10_i32 : BitVec 32 := 10#32
  let v0 : BitVec 32 := Scalar.addi arg0 c10_i32
  let c0_i32 : BitVec 32 := 0#32
  let c0_i32_0 : BitVec 32 := 0#32
  ![v0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c14_i32 : BitVec 32 := 14#32
  let v0 : BitVec 32 := Scalar.addi arg0 c14_i32
  let c0_i32 : BitVec 32 := 0#32
  let c0_i32_0 : BitVec 32 := 0#32
  ![v0.toNat, c0_i32.toNat]

def cc2_transform_7 (i : grid2.Coords) : Fin 2 → Nat :=
  let arg0 : BitVec 32 := BitVec.ofNat 32 (i 0).val
  let c14_i32 : BitVec 32 := 14#32
  let v0 : BitVec 32 := Scalar.addi arg0 c14_i32
  let c0_i32 : BitVec 32 := 0#32
  let c0_i32_0 : BitVec 32 := 0#32
  ![v0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S20000 : S_.BroadcastsInDim S20000 (![] : Fin 0 → Fin S20000.rank)
  bcast_S100000x1_S100000x128_0_1 : S100000x1.BroadcastsInDim S100000x128 (![0, 1] : Fin 2 → Fin S100000x128.rank)
  bcast_S_S20000x128 : S_.BroadcastsInDim S20000x128 (![] : Fin 0 → Fin S20000x128.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S100000x128 : S_.BroadcastsInDim S100000x128 (![] : Fin 0 → Fin S100000x128.rank)
  bcast_S_S170000x64 : S_.BroadcastsInDim S170000x64 (![] : Fin 0 → Fin S170000x64.rank)
  shapeCasts_S128_S1x128 : S128.ShapeCasts S1x128
  shapeCasts_S64_S1x64 : S64.ShapeCasts S1x64
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S20000_S20000x1 : S20000.ShapeCasts S20000x1
  shapeCasts_S100000_S100000x1 : S100000.ShapeCasts S100000x1
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S100000_S100000x1_S100000_n_0_0_1_wf : ScatterDims.WF S100000 S100000x1 S100000 [] [0] [0] 1
  scatter_S20000_S100000x1_S100000_n_0_0_1_wf : ScatterDims.WF S20000 S100000x1 S100000 [] [0] [0] 1
  gather_S100000x128_S100000x1_S100000x128_1_0_n_n_0_1_1128_wf : GatherDims.WF S100000x128 S100000x1 S100000x128 [1] [0] [] [0] [] 1 ![1, 128]
  scatter_S20000x128_S100000x1_S100000x128_1_0_0_1_wf : ScatterDims.WF S20000x128 S100000x1 S100000x128 [1] [0] [0] 1
  gather_S20000x128_S100000x1_S100000x128_1_0_n_n_0_1_1128_wf : GatherDims.WF S20000x128 S100000x1 S100000x128 [1] [0] [] [0] [] 1 ![1, 128]
  scatter_S100000x128_S100000x1_S100000x128_1_0_0_1_wf : ScatterDims.WF S100000x128 S100000x1 S100000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S170000x64.size a
  hwx0_6 : ∀ i : grid0.Coords, EltTy.bits .f32 = 32 ∨ (Rect.block (s := S170000x64) S5000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S170000x64.size a
  hwx0_7 : ∀ i : grid0.Coords, EltTy.bits .f32 = 32 ∨ (Rect.block (s := S170000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S20000x128.size a
  hwx1_0 : ∀ i : grid1.Coords, EltTy.bits .f32 = 32 ∨ (Rect.block (s := S20000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S20000x1.size a
  hwx1_1 : ∀ i : grid1.Coords, EltTy.bits .f32 = 32 ∨ (Rect.block (s := S20000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S170000x64.size a
  hwx1_6 : ∀ i : grid1.Coords, EltTy.bits .f32 = 32 ∨ (Rect.block (s := S170000x64) S5000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S170000x64.size a
  hwx1_7 : ∀ i : grid1.Coords, EltTy.bits .f32 = 32 ∨ (Rect.block (s := S170000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S170000x64.size a
  hwx2_6 : ∀ i : grid2.Coords, EltTy.bits .f32 = 32 ∨ (Rect.block (s := S170000x64) S5000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S170000x64.size a
  hwx2_7 : ∀ i : grid2.Coords, EltTy.bits .f32 = 32 ∨ (Rect.block (s := S170000x64) S5000x64.size (cc2_transform_7 i) (hinb2_7 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def scatter_S20000_S100000x1_S100000_n_0_0_1 : ScatterDims S20000 S100000x1 S100000 where
  updateWindowDims := []
  insertedWindowDims := [0]
  scatterDimsToOperandDims := [0]
  indexVectorDim := 1
  wf := scatter_S20000_S100000x1_S100000_n_0_0_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S20000x128_S100000x1_S100000x128_1_0_0_1 : ScatterDims S20000x128 S100000x1 S100000x128 where
  updateWindowDims := [1]
  insertedWindowDims := [0]
  scatterDimsToOperandDims := [0]
  indexVectorDim := 1
  wf := scatter_S20000x128_S100000x1_S100000x128_1_0_0_1_wf
def gather_S20000x128_S100000x1_S100000x128_1_0_n_n_0_1_1128 : GatherDims S20000x128 S100000x1 S100000x128 where
  offsetDims := [1]
  collapsedSliceDims := [0]
  operandBatchingDims := []
  startIndicesBatchingDims := []
  startIndexMap := [0]
  indexVectorDim := 1
  sliceSizes := ![1, 128]
  wf := gather_S20000x128_S100000x1_S100000x128_1_0_n_n_0_1_1128_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v75) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v73) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg15) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v74) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v72) S5000x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v76) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v79) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v77) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg17) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v78) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v76) S5000x64.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v80) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v70) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v81) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg19) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v82) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v80) S5000x64.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v84) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where
  halias0_7 : Pipeline.Aliased win0 6 7
  halias1_7 : Pipeline.Aliased win1 6 7
  halias2_7 : Pipeline.Aliased win2 6 7

variable [Facts]
-- ==== ReferenceIdeal.lean ====
abbrev S50000x128 : Shape := ⟨2, ![50000, 128]⟩
abbrev S100000x128 : Shape := ⟨2, ![100000, 128]⟩
abbrev S20000x128 : Shape := ⟨2, ![20000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S1x128 : Shape := ⟨2, ![1, 128]⟩
abbrev S100000x1 : Shape := ⟨2, ![100000, 1]⟩
abbrev S20000 : Shape := ⟨1, ![20000]⟩
abbrev S20000x1 : Shape := ⟨2, ![20000, 1]⟩
abbrev S50000x64 : Shape := ⟨2, ![50000, 64]⟩
abbrev S1x64 : Shape := ⟨2, ![1, 64]⟩
abbrev S20000x64 : Shape := ⟨2, ![20000, 64]⟩
abbrev S100000x64 : Shape := ⟨2, ![100000, 64]⟩
abbrev S170000x64 : Shape := ⟨2, ![170000, 64]⟩

abbrev nBuf : Space → Nat
  | .hbm => 184
  | .vmem => 0
  | .smem => 0
  | _ => 0

abbrev hbmTy0_0 (i : Nat) : BufTy := match i % 128 with
  | 0 => ⟨S50000x128, .f32⟩
  | 1 => ⟨S100000x128, .f32⟩
  | 2 => ⟨S20000x128, .f32⟩
  | 3 => ⟨S1600000, .i32⟩
  | 4 => ⟨S1600000, .i32⟩
  | 5 => ⟨S100000, .i32⟩
  | 6 => ⟨S100000, .i32⟩
  | 7 => ⟨S100000, .i32⟩
  | 8 => ⟨S100000, .i32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x64, .f32⟩
  | 16 => ⟨S64, .f32⟩
  | 17 => ⟨S128x64, .f32⟩
  | 18 => ⟨S64, .f32⟩
  | 19 => ⟨S128x64, .f32⟩
  | 20 => ⟨S64, .f32⟩
  | 21 => ⟨S_, .f32⟩
  | 22 => ⟨S1600000, .f32⟩
  | 23 => ⟨S_, .f32⟩
  | 24 => ⟨S50000, .f32⟩
  | 25 => ⟨S1600000x1, .i32⟩
  | 26 => ⟨S50000, .f32⟩
  | 27 => ⟨S_, .f32⟩
  | 28 => ⟨S_, .f32⟩
  | 29 => ⟨S50000, .f32⟩
  | 30 => ⟨S50000, .f32⟩
  | 31 => ⟨S_, .f32⟩
  | 32 => ⟨S50000, .f32⟩
  | 33 => ⟨S1600000x1, .i32⟩
  | 34 => ⟨S50000, .f32⟩
  | 35 => ⟨S_, .f32⟩
  | 36 => ⟨S_, .f32⟩
  | 37 => ⟨S50000, .f32⟩
  | 38 => ⟨S50000, .f32⟩
  | 39 => ⟨S50000, .f32⟩
  | 40 => ⟨S50000x1, .f32⟩
  | 41 => ⟨S50000x128, .f32⟩
  | 42 => ⟨S50000x128, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S_, .f32⟩
  | 53 => ⟨S50000x128, .f32⟩
  | 54 => ⟨S1600000x1, .i32⟩
  | 55 => ⟨S50000x128, .f32⟩
  | 56 => ⟨S50000, .f32⟩
  | 57 => ⟨S50000x1, .f32⟩
  | 58 => ⟨S50000x128, .f32⟩
  | 59 => ⟨S50000x128, .f32⟩
  | 60 => ⟨S50000x128, .f32⟩
  | 61 => ⟨S1x128, .f32⟩
  | 62 => ⟨S50000x128, .f32⟩
  | 63 => ⟨S50000x128, .f32⟩
  | 64 => ⟨S_, .f32⟩
  | 65 => ⟨S100000, .f32⟩
  | 66 => ⟨S_, .f32⟩
  | 67 => ⟨S100000, .f32⟩
  | 68 => ⟨S100000x1, .i32⟩
  | 69 => ⟨S100000, .f32⟩
  | 70 => ⟨S_, .f32⟩
  | 71 => ⟨S_, .f32⟩
  | 72 => ⟨S100000, .f32⟩
  | 73 => ⟨S100000, .f32⟩
  | 74 => ⟨S_, .f32⟩
  | 75 => ⟨S20000, .f32⟩
  | 76 => ⟨S100000x1, .i32⟩
  | 77 => ⟨S20000, .f32⟩
  | 78 => ⟨S_, .f32⟩
  | 79 => ⟨S_, .f32⟩
  | 80 => ⟨S20000, .f32⟩
  | 81 => ⟨S20000, .f32⟩
  | 82 => ⟨S100000, .f32⟩
  | 83 => ⟨S100000x1, .f32⟩
  | 84 => ⟨S100000x128, .f32⟩
  | 85 => ⟨S100000x128, .f32⟩
  | 86 => ⟨S_, .i32⟩
  | 87 => ⟨S100000, .i32⟩
  | 88 => ⟨S100000, .i1⟩
  | 89 => ⟨S_, .i32⟩
  | 90 => ⟨S100000, .i32⟩
  | 91 => ⟨S100000, .i32⟩
  | 92 => ⟨S100000, .i32⟩
  | 93 => ⟨S100000x1, .i32⟩
  | 94 => ⟨S100000x128, .f32⟩
  | 95 => ⟨S_, .f32⟩
  | 96 => ⟨S20000x128, .f32⟩
  | 97 => ⟨S100000x1, .i32⟩
  | 98 => ⟨S20000x128, .f32⟩
  | 99 => ⟨S20000, .f32⟩
  | 100 => ⟨S20000x1, .f32⟩
  | 101 => ⟨S20000x128, .f32⟩
  | 102 => ⟨S20000x128, .f32⟩
  | 103 => ⟨S20000x128, .f32⟩
  | 104 => ⟨S1x128, .f32⟩
  | 105 => ⟨S20000x128, .f32⟩
  | 106 => ⟨S20000x128, .f32⟩
  | 107 => ⟨S_, .f32⟩
  | 108 => ⟨S100000, .f32⟩
  | 109 => ⟨S_, .f32⟩
  | 110 => ⟨S20000, .f32⟩
  | 111 => ⟨S100000x1, .i32⟩
  | 112 => ⟨S20000, .f32⟩
  | 113 => ⟨S_, .f32⟩
  | 114 => ⟨S_, .f32⟩
  | 115 => ⟨S20000, .f32⟩
  | 116 => ⟨S20000, .f32⟩
  | 117 => ⟨S_, .f32⟩
  | 118 => ⟨S100000, .f32⟩
  | 119 => ⟨S100000x1, .i32⟩
  | 120 => ⟨S100000, .f32⟩
  | 121 => ⟨S_, .f32⟩
  | 122 => ⟨S_, .f32⟩
  | 123 => ⟨S100000, .f32⟩
  | 124 => ⟨S100000, .f32⟩
  | 125 => ⟨S20000, .f32⟩
  | 126 => ⟨S20000x1, .f32⟩
  | 127 => ⟨S20000x128, .f32⟩
  | _ => ⟨S50000x128, .f32⟩

abbrev hbmTy0_1 (i : Nat) : BufTy := match i % 128 with
  | 0 => ⟨S20000x128, .f32⟩
  | 1 => ⟨S_, .i32⟩
  | 2 => ⟨S100000, .i32⟩
  | 3 => ⟨S100000, .i1⟩
  | 4 => ⟨S_, .i32⟩
  | 5 => ⟨S100000, .i32⟩
  | 6 => ⟨S100000, .i32⟩
  | 7 => ⟨S100000, .i32⟩
  | 8 => ⟨S100000x1, .i32⟩
  | 9 => ⟨S100000x128, .f32⟩
  | 10 => ⟨S_, .f32⟩
  | 11 => ⟨S100000x128, .f32⟩
  | 12 => ⟨S100000x1, .i32⟩
  | 13 => ⟨S100000x128, .f32⟩
  | 14 => ⟨S100000, .f32⟩
  | 15 => ⟨S100000x1, .f32⟩
  | 16 => ⟨S100000x128, .f32⟩
  | 17 => ⟨S100000x128, .f32⟩
  | 18 => ⟨S100000x128, .f32⟩
  | 19 => ⟨S1x128, .f32⟩
  | 20 => ⟨S100000x128, .f32⟩
  | 21 => ⟨S100000x128, .f32⟩
  | 22 => ⟨S_, .f32⟩
  | 23 => ⟨S50000x128, .f32⟩
  | 24 => ⟨S50000x128, .i1⟩
  | 25 => ⟨S_, .f32⟩
  | 26 => ⟨S50000x128, .f32⟩
  | 27 => ⟨S50000x128, .f32⟩
  | 28 => ⟨S50000x128, .f32⟩
  | 29 => ⟨S50000x64, .f32⟩
  | 30 => ⟨S1x64, .f32⟩
  | 31 => ⟨S50000x64, .f32⟩
  | 32 => ⟨S50000x64, .f32⟩
  | 33 => ⟨S_, .f32⟩
  | 34 => ⟨S20000x128, .f32⟩
  | 35 => ⟨S20000x128, .i1⟩
  | 36 => ⟨S_, .f32⟩
  | 37 => ⟨S20000x128, .f32⟩
  | 38 => ⟨S20000x128, .f32⟩
  | 39 => ⟨S20000x128, .f32⟩
  | 40 => ⟨S20000x64, .f32⟩
  | 41 => ⟨S1x64, .f32⟩
  | 42 => ⟨S20000x64, .f32⟩
  | 43 => ⟨S20000x64, .f32⟩
  | 44 => ⟨S_, .f32⟩
  | 45 => ⟨S100000x128, .f32⟩
  | 46 => ⟨S100000x128, .i1⟩
  | 47 => ⟨S_, .f32⟩
  | 48 => ⟨S100000x128, .f32⟩
  | 49 => ⟨S100000x128, .f32⟩
  | 50 => ⟨S100000x128, .f32⟩
  | 51 => ⟨S100000x64, .f32⟩
  | 52 => ⟨S1x64, .f32⟩
  | 53 => ⟨S100000x64, .f32⟩
  | 54 => ⟨S100000x64, .f32⟩
  | 55 => ⟨S170000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_cst_0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_v4 : Ref sig .tc := ⟨.hbm, 30, rfl⟩
abbrev main_cst_2 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_c : Ref sig .tc := ⟨.hbm, 43, rfl⟩
abbrev main_v13 : Ref sig .tc := ⟨.hbm, 44, rfl⟩
abbrev main_v14 : Ref sig .tc := ⟨.hbm, 45, rfl⟩
abbrev main_c_4 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst_5 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_6 : Ref sig .tc := ⟨.hbm, 64, rfl⟩
abbrev main_v31 : Ref sig .tc := ⟨.hbm, 65, rfl⟩
abbrev main_cst_7 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_8 : Ref sig .tc := ⟨.hbm, 70, rfl⟩
abbrev main_call2_v0 : Ref sig .tc := ⟨.hbm, 71, rfl⟩
abbrev main_call2_v1 : Ref sig .tc := ⟨.hbm, 72, rfl⟩
abbrev main_v35 : Ref sig .tc := ⟨.hbm, 73, rfl⟩
abbrev main_cst_9 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_10 : Ref sig .tc := ⟨.hbm, 78, rfl⟩
abbrev main_call3_v0 : Ref sig .tc := ⟨.hbm, 79, rfl⟩
abbrev main_call3_v1 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_c_11 : Ref sig .tc := ⟨.hbm, 86, rfl⟩
abbrev main_v44 : Ref sig .tc := ⟨.hbm, 87, rfl⟩
abbrev main_v45 : Ref sig .tc := ⟨.hbm, 88, rfl⟩
abbrev main_c_12 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_cst_13 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_14 : Ref sig .tc := ⟨.hbm, 107, rfl⟩
abbrev main_v62 : Ref sig .tc := ⟨.hbm, 108, rfl⟩
abbrev main_cst_15 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_cst_16 : Ref sig .tc := ⟨.hbm, 113, rfl⟩
abbrev main_call4_v0 : Ref sig .tc := ⟨.hbm, 114, rfl⟩
abbrev main_call4_v1 : Ref sig .tc := ⟨.hbm, 115, rfl⟩
abbrev main_v66 : Ref sig .tc := ⟨.hbm, 116, rfl⟩
abbrev main_cst_17 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_cst_18 : Ref sig .tc := ⟨.hbm, 121, rfl⟩
abbrev main_call5_v0 : Ref sig .tc := ⟨.hbm, 122, rfl⟩
abbrev main_call5_v1 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_c_19 : Ref sig .tc := ⟨.hbm, 129, rfl⟩
abbrev main_v75 : Ref sig .tc := ⟨.hbm, 130, rfl⟩
abbrev main_v76 : Ref sig .tc := ⟨.hbm, 131, rfl⟩
abbrev main_c_20 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_cst_21 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_cst_22 : Ref sig .tc := ⟨.hbm, 150, rfl⟩
abbrev main_v93 : Ref sig .tc := ⟨.hbm, 151, rfl⟩
abbrev main_v94 : Ref sig .tc := ⟨.hbm, 152, rfl⟩
abbrev main_cst_23 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_cst_24 : Ref sig .tc := ⟨.hbm, 161, rfl⟩
abbrev main_v102 : Ref sig .tc := ⟨.hbm, 162, rfl⟩
abbrev main_v103 : Ref sig .tc := ⟨.hbm, 163, rfl⟩
abbrev main_cst_25 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_cst_26 : Ref sig .tc := ⟨.hbm, 172, rfl⟩
abbrev main_v111 : Ref sig .tc := ⟨.hbm, 173, rfl⟩
abbrev main_v112 : Ref sig .tc := ⟨.hbm, 174, rfl⟩
abbrev main_cst_27 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S20000 : S_.BroadcastsInDim S20000 (![] : Fin 0 → Fin S20000.rank)
  bcast_S100000x1_S100000x128_0_1 : S100000x1.BroadcastsInDim S100000x128 (![0, 1] : Fin 2 → Fin S100000x128.rank)
  bcast_S_S20000x128 : S_.BroadcastsInDim S20000x128 (![] : Fin 0 → Fin S20000x128.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S1x128_S20000x128_0_1 : S1x128.BroadcastsInDim S20000x128 (![0, 1] : Fin 2 → Fin S20000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1x64_S20000x64_0_1 : S1x64.BroadcastsInDim S20000x64 (![0, 1] : Fin 2 → Fin S20000x64.rank)
  bcast_S1x64_S100000x64_0_1 : S1x64.BroadcastsInDim S100000x64 (![0, 1] : Fin 2 → Fin S100000x64.rank)
  concatenates_S50000x64_S20000x64_S100000x64_S170000x64_d0 : Shape.Concatenates [S50000x64, S20000x64, S100000x64] S170000x64 0
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  scatter_S100000_S100000x1_S100000_n_0_0_1_wf : ScatterDims.WF S100000 S100000x1 S100000 [] [0] [0] 1
  scatter_S20000_S100000x1_S100000_n_0_0_1_wf : ScatterDims.WF S20000 S100000x1 S100000 [] [0] [0] 1
  gather_S100000x128_S100000x1_S100000x128_1_0_n_n_0_1_1128_wf : GatherDims.WF S100000x128 S100000x1 S100000x128 [1] [0] [] [0] [] 1 ![1, 128]
  scatter_S20000x128_S100000x1_S100000x128_1_0_0_1_wf : ScatterDims.WF S20000x128 S100000x1 S100000x128 [1] [0] [0] 1
  dot_S20000x128_S128x128_S20000x128_1_0_0_1_n_n_wf : DotDims.WF S20000x128 S128x128 S20000x128 [1] [0] [0] [1] [] []
  gather_S20000x128_S100000x1_S100000x128_1_0_n_n_0_1_1128_wf : GatherDims.WF S20000x128 S100000x1 S100000x128 [1] [0] [] [0] [] 1 ![1, 128]
  scatter_S100000x128_S100000x1_S100000x128_1_0_0_1_wf : ScatterDims.WF S100000x128 S100000x1 S100000x128 [1] [0] [0] 1
  dot_S100000x128_S128x128_S100000x128_1_0_0_1_n_n_wf : DotDims.WF S100000x128 S128x128 S100000x128 [1] [0] [0] [1] [] []
  dot_S50000x128_S128x64_S50000x64_1_0_0_1_n_n_wf : DotDims.WF S50000x128 S128x64 S50000x64 [1] [0] [0] [1] [] []
  dot_S20000x128_S128x64_S20000x64_1_0_0_1_n_n_wf : DotDims.WF S20000x128 S128x64 S20000x64 [1] [0] [0] [1] [] []
  dot_S100000x128_S128x64_S100000x64_1_0_0_1_n_n_wf : DotDims.WF S100000x128 S128x64 S100000x64 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def scatter_S20000_S100000x1_S100000_n_0_0_1 : ScatterDims S20000 S100000x1 S100000 where
  updateWindowDims := []
  insertedWindowDims := [0]
  scatterDimsToOperandDims := [0]
  indexVectorDim := 1
  wf := scatter_S20000_S100000x1_S100000_n_0_0_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S20000x128_S100000x1_S100000x128_1_0_0_1 : ScatterDims S20000x128 S100000x1 S100000x128 where
  updateWindowDims := [1]
  insertedWindowDims := [0]
  scatterDimsToOperandDims := [0]
  indexVectorDim := 1
  wf := scatter_S20000x128_S100000x1_S100000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S100000x1_S100000x128_1_0_n_n_0_1_1128 : GatherDims S20000x128 S100000x1 S100000x128 where
  offsetDims := [1]
  collapsedSliceDims := [0]
  operandBatchingDims := []
  startIndicesBatchingDims := []
  startIndexMap := [0]
  indexVectorDim := 1
  sliceSizes := ![1, 128]
  wf := gather_S20000x128_S100000x1_S100000x128_1_0_n_n_0_1_1128_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.RunNamed.lean ====
/-
  The run of the three-region program with its result array NAMED.

  The program's last thread state holds every buffer at the contents the fold through its host stretches and regions
  leaves; reading the result buffer there, beside the argument buffers, gives the run's post: the result array is the
  fold's value at the result buffer, and the arguments end as launched.
-/
import proofs.«156169_j3143916060812_2_alg».proof.Proof.Gen.KernelIdeal.Frame

set_option maxRecDepth 16384

noncomputable section

namespace Cert.KernelIdeal.Final

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without fault; the result buffer ends at the fold's value `W18` there, and
    every argument buffer as launched. -/
theorem run_named : θ_run defs (onTc (τ := τ) (main (F := F))) ⟨m, fun _ => 0, ρ⟩ (fun r => ∀ c : Dev nD,
      r.2.mem ((c.tc : Thread nD τ).loc main_v84) = W18 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v84 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c),
       (h c _ (mem_uc main_arg17 (by decide))).trans (W18_main_arg17 m ρ c),
       (h c _ (mem_uc main_arg18 (by decide))).trans (W18_main_arg18 m ρ c),
       (h c _ (mem_uc main_arg19 (by decide))).trans (W18_main_arg19 m ρ c),
       (h c _ (mem_uc main_arg20 (by decide))).trans (W18_main_arg20 m ρ c)⟩)

end Cert.KernelIdeal.Final

end
-- ==== Proof.HeadLaw.lean ====
/-
  One head of the heterogeneous graph convolution, entry by entry on the extended reals, in the two arrangements the
  two programs compute, and the law that joins them.

  For a destination row with aggregated features `a : Fin 128 → EReal`, degree scale `r`, first weights `W₁` and bias
  `b₁`, second weights `W₂` and bias `b₂`:
    * scale-after:  hidden k = (∑ l, a l · W₁ l k) · r + b₁ k
    * scale-before: hidden k = (∑ l, (a l · r) · W₁ l k) + b₁ k
  and in both, out j = (∑ k, leaky (hidden k) · W₂ k j) + b₂ j, with leaky h = h when h > 0 and slope · h otherwise.
  The two hidden layers agree as soon as `r` is a nonnegative real: multiplication by such an `r` distributes over
  every sum of extended reals, infinite summands included, so nothing is asked of `a` or `W₁`.
  The scale is the reciprocal square root of a degree clipped below at one, which is such a real.
-/
import Idealize.ShloMosaic.PureOps.Ideal
import Idealize.ShloMosaic.PureOps.Ideal.Laws
import Idealize.ShloMosaic.Lib.IdealHost

noncomputable section

namespace Cert.HeteroConv

open Idealize.ShloMosaic

/-- The leaky rectifier with the slope word `0x3C23D70A` (the f32 nearest one hundredth): `h` where `h > 0`, slope
    times `h` elsewhere. -/
def leaky (h : EReal) : EReal :=
  Scalar.select (FloatOps.cmpf (F := Ideal) (φ := .f32) .ogt h (Ideal.ofBits .f32 0x00000000#32)) h
    (Ideal.ofBits .f32 0x3C23D70A#32 * h)

/-- Hidden layer, the degree scale applied AFTER the first product. -/
def hiddenAfter (a : Fin 128 → EReal) (r : EReal) (W₁ : Fin 128 → Fin 128 → EReal) (b₁ : Fin 128 → EReal)
    (k : Fin 128) : EReal :=
  (∑ l : Fin 128, a l * W₁ l k) * r + b₁ k

/-- Hidden layer, the degree scale applied to the features BEFORE the first product. -/
def hiddenBefore (a : Fin 128 → EReal) (r : EReal) (W₁ : Fin 128 → Fin 128 → EReal) (b₁ : Fin 128 → EReal)
    (k : Fin 128) : EReal :=
  (∑ l : Fin 128, (a l * r) * W₁ l k) + b₁ k

/-- The output layer over a hidden layer `h`. -/
def outOf (h : Fin 128 → EReal) (W₂ : Fin 128 → Fin 64 → EReal) (b₂ : Fin 64 → EReal) (j : Fin 64) : EReal :=
  (∑ k : Fin 128, leaky (h k) * W₂ k j) + b₂ j

/-- A nonnegative real factor comes out of any finite sum of extended reals. -/
theorem sum_mul_of_nonneg_of_ne_top {ι : Type*} (s : Finset ι) (f : ι → EReal) {r : EReal} (h0 : 0 ≤ r) (ht : r ≠ ⊤) :
    ∑ i ∈ s, f i * r = (∑ i ∈ s, f i) * r := by
  classical
  induction s using Finset.induction_on with
  | empty => simp
  | insert i s hi ih =>
    rw [Finset.sum_insert hi, Finset.sum_insert hi, ih, EReal.right_distrib_of_nonneg_of_ne_top h0 ht]

/-- THE LAW: for a nonnegative real scale the two hidden layers are one. -/
theorem hiddenBefore_eq_hiddenAfter (a : Fin 128 → EReal) {r : EReal} (h0 : 0 ≤ r) (ht : r ≠ ⊤)
    (W₁ : Fin 128 → Fin 128 → EReal) (b₁ : Fin 128 → EReal) (k : Fin 128) :
    hiddenBefore a r W₁ b₁ k = hiddenAfter a r W₁ b₁ k := by
  unfold hiddenBefore hiddenAfter
  rw [← sum_mul_of_nonneg_of_ne_top Finset.univ (fun l => a l * W₁ l k) h0 ht]
  congr 1
  exact Finset.sum_congr rfl fun l _ => mul_right_comm _ _ _

/-- The reciprocal square root of an extended real at least one is a nonnegative real. -/
theorem rsqrt_nonneg_ne_top {x : EReal} (hx : 1 ≤ x) : 0 ≤ Ideal.rsqrt x ∧ Ideal.rsqrt x ≠ ⊤ := by
  induction x using EReal.rec with
  | bot => exact absurd (le_bot_iff.mp hx) (EReal.coe_ne_bot 1)
  | top => simp
  | coe t =>
    have ht : (1 : ℝ) ≤ t := by exact_mod_cast hx
    rw [Ideal.rsqrt_coe, if_neg (by linarith), if_neg (by linarith)]
    exact ⟨by exact_mod_cast inv_nonneg.mpr (Real.sqrt_nonneg t), EReal.coe_ne_top _⟩

/-- The scale of a degree clipped below at the f32 one. -/
theorem rsqrt_clip_nonneg_ne_top (s : EReal) :
    0 ≤ Ideal.rsqrt (max (Ideal.ofBits .f32 0x3F800000#32) s) ∧ Ideal.rsqrt (max (Ideal.ofBits .f32 0x3F800000#32) s) ≠ ⊤ :=
  rsqrt_nonneg_ne_top (by rw [Ideal.ofBits_one_f32]; exact le_max_left _ _)

end Cert.HeteroConv

end
-- ==== Proof.LibMatmulPlain.lean ====
/-
  A plain matrix product at the exact instance, read at an entry.

  For an `A × K` left operand and a `K × B` right operand contracted over the shared axis, accumulated into the zero
  matrix, the entry at `(a, b)` is the sum over `k` of `l[a,k] · r[k,b]`: on the extended reals the product is the
  exact sum, with no rounding and no order of accumulation left in it.
-/
import Idealize.ShloMosaic.Lib.ValueIdx
import Idealize.ShloMosaic.PureOps.Ideal.Laws

noncomputable section

namespace Cert.Lib.MatmulPlain

open Idealize.ShloMosaic Idealize.ShloMosaic.ValueIdx

variable {A K B : ℕ} {φ₁ φ₂ : FTy}

theorem lhs_row (j : (⟨2, ![A, B]⟩ : Shape).Idx) (q : (DotDims.plain A K B).contr.Idx) :
    ((DotDims.plain A K B).lhsIdx j q 0).val = (j 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.mpr rfl)]
  rfl

theorem lhs_col (j : (⟨2, ![A, B]⟩ : Shape).Idx) (q : (DotDims.plain A K B).contr.Idx) :
    ((DotDims.plain A K B).lhsIdx j q 1).val = (q ⟨0, Nat.one_pos⟩).val :=
  (DotDims.plain A K B).lhsIdx_val_of_single rfl j q

theorem rhs_row (j : (⟨2, ![A, B]⟩ : Shape).Idx) (q : (DotDims.plain A K B).contr.Idx) :
    ((DotDims.plain A K B).rhsIdx j q 0).val = (q ⟨0, Nat.one_pos⟩).val :=
  (DotDims.plain A K B).rhsIdx_val_of_single rfl j q

theorem rhs_col (j : (⟨2, ![A, B]⟩ : Shape).Idx) (q : (DotDims.plain A K B).contr.Idx) :
    ((DotDims.plain A K B).rhsIdx j q 1).val = (j 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.mpr rfl)]
  rfl

/-- The `(a, b)` entry of an `A × K` by `K × B` product accumulated into zero is `∑ k, l[a,k] · r[k,b]`. -/
theorem matmul_plain_zero_apply (prec : Option ContractPrecision) (l : FVec Ideal ⟨2, ![A, K]⟩ φ₁)
    (r : FVec Ideal ⟨2, ![K, B]⟩ φ₂) (a : Fin A) (b : Fin B) :
    FloatOps.matmul (DotDims.plain A K B) prec l r (constant ⟨2, ![A, B]⟩ .f32 0x00000000#32) (ix2 a b)
      = ∑ k : Fin K, l (ix2 a k) * r (ix2 k b) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun x => Fin.ext (by
      match x with
      | ⟨0, _⟩ => exact lhs_row _ _
      | ⟨1, _⟩ => exact (lhs_col _ _).trans hk)
  have er : (DotDims.plain A K B).rhsIdx (ix2 a b) ((contrEquiv1 (DotDims.plain A K B) K rfl rfl).symm k) = ix2 k b :=
    funext fun x => Fin.ext (by
      match x with
      | ⟨0, _⟩ => exact (rhs_row _ _).trans hk
      | ⟨1, _⟩ => exact rhs_col _ _)
  rw [el, er]

end Cert.Lib.MatmulPlain

end
-- ==== Proof.Payload.lean ====
/-
  The kernel body's stored value at an entry.

  The body reads a 5000-row block of aggregated features `a`, the block's column of degree scales `r`, and the whole
  of both weight matrices and both bias rows. Row `p`, column `j` of what it stores is
      (∑ k, leaky ((∑ l, a[p,l] · W₁[l,k]) · r[p] + b₁[k]) · W₂[k,j]) + b₂[j]:
  the two matrix products are exact sums on the extended reals, the narrowing of their operands to sixteen bits is the
  identity there, and the column and the two rows are read through their broadcasts.
-/
import proofs.«156169_j3143916060812_2_alg».proof.Proof.Gen.KernelIdeal.Skeleton
import proofs.«156169_j3143916060812_2_alg».proof.Proof.HeadLaw
import proofs.«156169_j3143916060812_2_alg».proof.Proof.LibMatmulPlain
import Idealize.ShloMosaic.Lib.Pipeline.Value
import Idealize.ShloMosaic.Lib.ValueIdx

noncomputable section

namespace Cert.KernelIdeal.Body

open Idealize.ShloMosaic Idealize.ShloMosaic.ValueIdx Cert.KernelIdeal Cert.KernelIdeal.Gen Cert.HeteroConv

/-- Both products are plain ones: rows by columns, contracted over the shared axis. -/
theorem dot1_plain : dot_S5000x128_S128x128_S5000x128_1_0_0_1_n_n = DotDims.plain 5000 128 128 := rfl
theorem dot2_plain : dot_S5000x128_S128x64_S5000x64_1_0_0_1_n_n = DotDims.plain 5000 128 64 := rfl

/-- A column `[5000,1]` broadcast along the lanes, read at `(p, k)`, is the column at `p`. -/
theorem col_bcast_apply (v : Vec Ideal S5000x1 .f32) (p : Fin 5000) (k : Fin 128) :
    broadcastTo S5000x128 (shapeCast S5000x1 v shapeCasts_S5000x1_S5000x1) broadcasts_S5000x1_S5000x128 (ix2 p k) = v (ix2 p 0) := by
  rw [shapeCast_self]
  refine broadcastTo_apply _ _ _ (ix2 p 0) fun a => ?_
  match a with
  | ⟨0, _⟩ => rfl
  | ⟨1, _⟩ => rfl

/-- A row `[1,128]` broadcast down the rows, read at `(p, k)`, is the row at `k`. -/
theorem row128_bcast_apply (v : Vec Ideal S1x128 .f32) (p : Fin 5000) (k : Fin 128) :
    broadcastTo S5000x128 (shapeCast S1x128 v shapeCasts_S1x128_S1x128) broadcasts_S1x128_S5000x128 (ix2 p k) = v (ix2 0 k) := by
  rw [shapeCast_self]
  refine broadcastTo_apply _ _ _ (ix2 0 k) fun a => ?_
  match a with
  | ⟨0, _⟩ => rfl
  | ⟨1, _⟩ => rfl

/-- A row `[1,64]` broadcast down the rows, read at `(p, j)`, is the row at `j`. -/
theorem row64_bcast_apply (v : Vec Ideal S1x64 .f32) (p : Fin 5000) (j : Fin 64) :
    broadcastTo S5000x64 (shapeCast S1x64 v shapeCasts_S1x64_S1x64) broadcasts_S1x64_S5000x64 (ix2 p j) = v (ix2 0 j) := by
  rw [shapeCast_self]
  refine broadcastTo_apply _ _ _ (ix2 0 j) fun a => ?_
  match a with
  | ⟨0, _⟩ => rfl
  | ⟨1, _⟩ => rfl

/-- The hidden layer of the body as one vector. -/
def hid (v0 : Vec Ideal S5000x128 .f32) (v3 : Vec Ideal S128x128 .f32) (v6 : Vec Ideal S5000x1 .f32)
    (v10 : Vec Ideal S1x128 .f32) : FVec Ideal S5000x128 .f32 :=
  addf (mulf (matmul dot_S5000x128_S128x128_S5000x128_1_0_0_1_n_n none
      (truncf .bf16 (shapeCast S5000x128 v0 shapeCasts_S5000x128_S5000x128) bitsLt_bf16_f32) (truncf .bf16 v3 bitsLt_bf16_f32)
      (constant S5000x128 .f32 0x00000000#32))
    (broadcastTo S5000x128 (shapeCast S5000x1 v6 shapeCasts_S5000x1_S5000x1) broadcasts_S5000x1_S5000x128))
    (broadcastTo S5000x128 (shapeCast S1x128 v10 shapeCasts_S1x128_S1x128) broadcasts_S1x128_S5000x128)

/-- The hidden layer at `(p, k)`: the first product's exact sum, scaled by the row's degree factor, plus the bias. -/
theorem hid_apply (v0 : Vec Ideal S5000x128 .f32) (v3 : Vec Ideal S128x128 .f32) (v6 : Vec Ideal S5000x1 .f32)
    (v10 : Vec Ideal S1x128 .f32) (p : Fin 5000) (k : Fin 128) :
    hid v0 v3 v6 v10 (ix2 p k)
      = hiddenAfter (fun l => v0 (ix2 p l)) (v6 (ix2 p 0)) (fun l k => v3 (ix2 l k)) (fun k => v10 (ix2 0 k)) k := by
  unfold hid hiddenAfter
  rw [addf_apply, mulf_apply, col_bcast_apply, row128_bcast_apply, dot1_plain]
  have hm : matmul (F := Ideal) (DotDims.plain 5000 128 128) none
      (truncf .bf16 (shapeCast S5000x128 v0 shapeCasts_S5000x128_S5000x128) bitsLt_bf16_f32) (truncf .bf16 v3 bitsLt_bf16_f32)
      (constant (F := Ideal) S5000x128 .f32 0x00000000#32) (ix2 p k)
      = ∑ l : Fin 128, (truncf .bf16 (shapeCast S5000x128 v0 shapeCasts_S5000x128_S5000x128) bitsLt_bf16_f32 : FVec Ideal S5000x128 .bf16) (ix2 p l)
          * (truncf .bf16 v3 bitsLt_bf16_f32 : FVec Ideal S128x128 .bf16) (ix2 l k) :=
    Cert.Lib.MatmulPlain.matmul_plain_zero_apply (A := 5000) (K := 128) (B := 128) none _ _ p k
  rw [hm, shapeCast_self]
  rfl

/-- The activation of the body as one vector: the hidden layer where it is positive, the slope times it elsewhere. -/
def act (v0 : Vec Ideal S5000x128 .f32) (v3 : Vec Ideal S128x128 .f32) (v6 : Vec Ideal S5000x1 .f32)
    (v10 : Vec Ideal S1x128 .f32) : FVec Ideal S5000x128 .f32 :=
  select (cmpf .ogt (hid v0 v3 v6 v10) (broadcast S5000x128 (Scalar.ofBits .f32 0x00000000#32)))
    (hid v0 v3 v6 v10) (mulf (broadcast S5000x128 (Scalar.ofBits .f32 0x3C23D70A#32)) (hid v0 v3 v6 v10))

theorem act_apply (v0 : Vec Ideal S5000x128 .f32) (v3 : Vec Ideal S128x128 .f32) (v6 : Vec Ideal S5000x1 .f32)
    (v10 : Vec Ideal S1x128 .f32) (p : Fin 5000) (k : Fin 128) :
    act v0 v3 v6 v10 (ix2 p k)
      = leaky (hiddenAfter (fun l => v0 (ix2 p l)) (v6 (ix2 p 0)) (fun l k => v3 (ix2 l k)) (fun k => v10 (ix2 0 k)) k) := by
  rw [← hid_apply]
  rfl

/-- The body's stored value is the output layer over that hidden layer. -/
theorem pay_eq (v0 : Vec Ideal S5000x128 .f32) (v3 : Vec Ideal S128x128 .f32) (v6 : Vec Ideal S5000x1 .f32)
    (v10 : Vec Ideal S1x128 .f32) (v20 : Vec Ideal S128x64 .f32) (v23 : Vec Ideal S1x64 .f32) :
    k0_pay1 (F := Ideal) v0 v3 v6 v10 v20 v23
      = addf (matmul dot_S5000x128_S128x64_S5000x64_1_0_0_1_n_n none
          (truncf .bf16 (act v0 v3 v6 v10) bitsLt_bf16_f32)
          (truncf .bf16 v20 bitsLt_bf16_f32) (constant S5000x64 .f32 0x00000000#32))
        (broadcastTo S5000x64 (shapeCast S1x64 v23 shapeCasts_S1x64_S1x64) broadcasts_S1x64_S5000x64) := rfl

/-- THE BODY AT AN ENTRY. -/
theorem pay_apply (v0 : Vec Ideal S5000x128 .f32) (v3 : Vec Ideal S128x128 .f32) (v6 : Vec Ideal S5000x1 .f32)
    (v10 : Vec Ideal S1x128 .f32) (v20 : Vec Ideal S128x64 .f32) (v23 : Vec Ideal S1x64 .f32) (p : Fin 5000) (j : Fin 64) :
    k0_pay1 (F := Ideal) v0 v3 v6 v10 v20 v23 (ix2 p j)
      = outOf (hiddenAfter (fun l => v0 (ix2 p l)) (v6 (ix2 p 0)) (fun l k => v3 (ix2 l k)) (fun k => v10 (ix2 0 k)))
          (fun k j => v20 (ix2 k j)) (fun j => v23 (ix2 0 j)) j := by
  rw [pay_eq, addf_apply, row64_bcast_apply, dot2_plain]
  have hm : matmul (F := Ideal) (DotDims.plain 5000 128 64) none
      (truncf .bf16 (act v0 v3 v6 v10) bitsLt_bf16_f32) (truncf .bf16 v20 bitsLt_bf16_f32)
      (constant (F := Ideal) S5000x64 .f32 0x00000000#32) (ix2 p j)
      = ∑ k : Fin 128, (truncf .bf16 (act v0 v3 v6 v10) bitsLt_bf16_f32 : FVec Ideal S5000x128 .bf16) (ix2 p k)
          * (truncf .bf16 v20 bitsLt_bf16_f32 : FVec Ideal S128x64 .bf16) (ix2 k j) :=
    Cert.Lib.MatmulPlain.matmul_plain_zero_apply (A := 5000) (K := 128) (B := 64) none _ _ p j
  rw [hm]
  unfold outOf
  refine congrArg₂ (· + ·) (Finset.sum_congr rfl fun k _ => ?_) rfl
  rw [← act_apply]
  rfl

/-! The three regions run the same body. -/

/-- Region 0's copy. -/
theorem pay0_apply (v0 : Vec Ideal S5000x128 .f32) (v3 : Vec Ideal S128x128 .f32) (v6 : Vec Ideal S5000x1 .f32)
    (v10 : Vec Ideal S1x128 .f32) (v20 : Vec Ideal S128x64 .f32) (v23 : Vec Ideal S1x64 .f32) (p : Fin 5000) (j : Fin 64) :
    k0_pay1 (F := Ideal) v0 v3 v6 v10 v20 v23 (ix2 p j)
      = outOf (hiddenAfter (fun l => v0 (ix2 p l)) (v6 (ix2 p 0)) (fun l k => v3 (ix2 l k)) (fun k => v10 (ix2 0 k)))
          (fun k j => v20 (ix2 k j)) (fun j => v23 (ix2 0 j)) j :=
  pay_apply v0 v3 v6 v10 v20 v23 p j

/-- The same reading for region 1's copy of the body. -/
theorem pay1_apply (v0 : Vec Ideal S5000x128 .f32) (v3 : Vec Ideal S128x128 .f32) (v6 : Vec Ideal S5000x1 .f32)
    (v10 : Vec Ideal S1x128 .f32) (v20 : Vec Ideal S128x64 .f32) (v23 : Vec Ideal S1x64 .f32) (p : Fin 5000) (j : Fin 64) :
    k1_pay1 (F := Ideal) v0 v3 v6 v10 v20 v23 (ix2 p j)
      = outOf (hiddenAfter (fun l => v0 (ix2 p l)) (v6 (ix2 p 0)) (fun l k => v3 (ix2 l k)) (fun k => v10 (ix2 0 k)))
          (fun k j => v20 (ix2 k j)) (fun j => v23 (ix2 0 j)) j :=
  pay_apply v0 v3 v6 v10 v20 v23 p j

/-- The same reading for region 2's copy of the body. -/
theorem pay2_apply (v0 : Vec Ideal S5000x128 .f32) (v3 : Vec Ideal S128x128 .f32) (v6 : Vec Ideal S5000x1 .f32)
    (v10 : Vec Ideal S1x128 .f32) (v20 : Vec Ideal S128x64 .f32) (v23 : Vec Ideal S1x64 .f32) (p : Fin 5000) (j : Fin 64) :
    k2_pay1 (F := Ideal) v0 v3 v6 v10 v20 v23 (ix2 p j)
      = outOf (hiddenAfter (fun l => v0 (ix2 p l)) (v6 (ix2 p 0)) (fun l k => v3 (ix2 l k)) (fun k => v10 (ix2 0 k)))
          (fun k j => v20 (ix2 k j)) (fun j => v23 (ix2 0 j)) j :=
  pay_apply v0 v3 v6 v10 v20 v23 p j

end Cert.KernelIdeal.Body

end
-- ==== Proof.Blocks.lean ====
/-
  Each of the three regions writes one head into its own rows of the shared result.

  A region's grid walks 5000-row blocks of its destination rows. At a point it reads the block's aggregated features
  and degree scales, and the whole of the head's weights and biases, and writes the body's value into the output block
  shifted by the head's offset. So what a point writes back is that block of one whole-array function (the head at the
  result row minus the offset), the blocks of the points tile exactly the head's rows, and after the region the shared
  result holds the head on those rows and whatever the region found on the others.
-/
import proofs.«156169_j3143916060812_2_alg».proof.Proof.Gen.KernelIdeal.Frame
import proofs.«156169_j3143916060812_2_alg».proof.Proof.Payload

set_option maxRecDepth 16384

noncomputable section
namespace Cert.KernelIdeal.Blocks

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.HeteroConv

variable (V : (c : Dev nD) → (b : Ref sig .tc) → Buf (Elt Ideal) ((c : Thread nD τ).loc b))

theorem hz : (![0, 0] : Fin 2 → Nat) = fun _ => 0 := funext fun a => by fin_cases a <;> rfl

/-! ## Region 0: 50000 destination rows, written at rows 0 … 49999 of the shared result -/

/-- The head's row for a row of the shared result. -/
def row0 (i : S170000x64.Idx) : Fin 50000 := ⟨((i 0).val - 0) % 50000, Nat.mod_lt _ (by decide)⟩

/-- What region 0 leaves where it writes: the head of its six input arrays, at the head's row. -/
def G0 (A : S50000x128.Idx → EReal) (R : S50000x1.Idx → EReal) (W1 : S128x128.Idx → EReal) (B1 : S1x128.Idx → EReal)
    (W2 : S128x64.Idx → EReal) (B2 : S1x64.Idx → EReal) : S170000x64.Idx → EReal := fun i =>
  outOf (hiddenAfter (fun l => A (ix2 (row0 i) l)) (R (ix2 (row0 i) 0)) (fun l k => W1 (ix2 l k)) (fun k => B1 (ix2 0 k)))
    (fun k j => W2 (ix2 k j)) (fun j => B2 (ix2 0 j)) ⟨(i 1).val, (i 1).isLt⟩

/-- The printed index maps over the grid: the row-tiled windows move with the point, the weights and biases stay,
    the output's block is the point's shifted by 0 blocks. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_7.index t (0 : Fin 2) = t.val + 0 ∧ win0_7.index t (1 : Fin 2) = 0 :=
  (by decide +kernel : ∀ t : Fin grid0.N, _)

theorem blkA0 (c : Dev nD) (t : Fin cfg0.N) (q : Fin 5000) (l : Fin 128) (r : Fin 50000) (hr : r.val = t.val * 5000 + q.val) :
    iblk0 V c 0 t (ix2 q l) = V c (Pipeline.arrRef spec0 0) (ix2 r l) := by
  obtain ⟨e0, e1, -⟩ := idx_facts0 t
  show V c (Pipeline.arrRef spec0 0) (((cfg0.win 0).blk t).view.emb (ix2 q l)) = _
  refine congrArg _ (funext fun a => Fin.ext ?_)
  match a with
  | ⟨0, _⟩ => show win0_0.index t (0 : Fin 2) * 5000 + 1 * q.val = r.val; omega
  | ⟨1, _⟩ => show win0_0.index t (1 : Fin 2) * 128 + 1 * l.val = l.val; omega

theorem blkR0 (c : Dev nD) (t : Fin cfg0.N) (q : Fin 5000) (r : Fin 50000) (hr : r.val = t.val * 5000 + q.val) :
    iblk0 V c 1 t (ix2 q 0) = V c (Pipeline.arrRef spec0 1) (ix2 r 0) := by
  obtain ⟨-, -, e0, e1, -⟩ := idx_facts0 t
  show V c (Pipeline.arrRef spec0 1) (((cfg0.win 1).blk t).view.emb (ix2 q 0)) = _
  refine congrArg _ (funext fun a => Fin.ext ?_)
  match a with
  | ⟨0, _⟩ => show win0_1.index t (0 : Fin 2) * 5000 + 1 * q.val = r.val; omega
  | ⟨1, _⟩ => show win0_1.index t (1 : Fin 2) * 1 + 1 * 0 = 0; omega

theorem blkW1_0 (c : Dev nD) (t : Fin cfg0.N) (l k : Fin 128) :
    iblk0 V c 2 t (ix2 l k) = V c (Pipeline.arrRef spec0 2) (ix2 l k) := by
  obtain ⟨-, -, -, -, e0, e1, -⟩ := idx_facts0 t
  show V c (Pipeline.arrRef spec0 2) (((cfg0.win 2).blk t).view.emb (ix2 l k)) = _
  refine congrArg _ (funext fun a => Fin.ext ?_)
  match a with
  | ⟨0, _⟩ => show win0_2.index t (0 : Fin 2) * 128 + 1 * l.val = l.val; omega
  | ⟨1, _⟩ => show win0_2.index t (1 : Fin 2) * 128 + 1 * k.val = k.val; omega

theorem blkB1_0 (c : Dev nD) (t : Fin cfg0.N) (k : Fin 128) :
    iblk0 V c 3 t (ix2 0 k) = V c (Pipeline.arrRef spec0 3) (ix2 0 k) := by
  obtain ⟨-, -, -, -, -, -, e0, e1, -⟩ := idx_facts0 t
  show V c (Pipeline.arrRef spec0 3) (((cfg0.win 3).blk t).view.emb (ix2 0 k)) = _
  refine congrArg _ (funext fun a => Fin.ext ?_)
  match a with
  | ⟨0, _⟩ => show win0_3.index t (0 : Fin 2) * 1 + 1 * 0 = 0; omega
  | ⟨1, _⟩ => show win0_3.index t (1 : Fin 2) * 128 + 1 * k.val = k.val; omega

theorem blkW2_0 (c : Dev nD) (t : Fin cfg0.N) (k : Fin 128) (j : Fin 64) :
    iblk0 V c 4 t (ix2 k j) = V c (Pipeline.arrRef spec0 4) (ix2 k j) := by
  obtain ⟨-, -, -, -, -, -, -, -, e0, e1, -⟩ := idx_facts0 t
  show V c (Pipeline.arrRef spec0 4) (((cfg0.win 4).blk t).view.emb (ix2 k j)) = _
  refine congrArg _ (funext fun a => Fin.ext ?_)
  match a with
  | ⟨0, _⟩ => show win0_4.index t (0 : Fin 2) * 128 + 1 * k.val = k.val; omega
  | ⟨1, _⟩ => show win0_4.index t (1 : Fin 2) * 64 + 1 * j.val = j.val; omega

theorem blkB2_0 (c : Dev nD) (t : Fin cfg0.N) (j : Fin 64) :
    iblk0 V c 5 t (ix2 0 j) = V c (Pipeline.arrRef spec0 5) (ix2 0 j) := by
  obtain ⟨-, -, -, -, -, -, -, -, -, -, e0, e1, -⟩ := idx_facts0 t
  show V c (Pipeline.arrRef spec0 5) (((cfg0.win 5).blk t).view.emb (ix2 0 j)) = _
  refine congrArg _ (funext fun a => Fin.ext ?_)
  match a with
  | ⟨0, _⟩ => show win0_5.index t (0 : Fin 2) * 1 + 1 * 0 = 0; omega
  | ⟨1, _⟩ => show win0_5.index t (1 : Fin 2) * 64 + 1 * j.val = j.val; omega

set_option maxHeartbeats 1000000 in
/-- WHAT POINT `t` WRITES BACK is block `t` of `G0` of the region's input arrays as it finds them. -/
theorem flushed0_eq (c : Dev nD) (t : Fin cfg0.N) :
    (dat0 V c).flushed 7 t = ((cfg0.win 7).blk t).view.read (Elt Ideal)
      (G0 (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))) := by
  show (cfg0.win 7).cut (grid0.coords t) ((dat0 V c).after 7 t) = _
  rw [after0_7]
  unfold out0_7
  rw [View.canon_unit_zero hz]
  simp only [View.ld_unit_zero (S := S5000x128) hz, View.ld_unit_zero (S := S128x128) hz, View.ld_unit_zero (S := S5000x1) hz,
    View.ld_unit_zero (S := S1x128) hz, View.ld_unit_zero (S := S128x64) hz, View.ld_unit_zero (S := S1x64) hz]
  funext y
  obtain ⟨q, j, rfl⟩ : ∃ (q : Fin 5000) (j : Fin 64), y = ix2 q j := ⟨y 0, y 1, eq_ix2 y⟩
  have ht : t.val < 10 := t.isLt
  obtain ⟨-, -, -, -, -, -, -, -, -, -, -, -, e0, e1⟩ := idx_facts0 t
  have hi0 : ((((cfg0.win 7).blk t).view.emb (ix2 q j)) 0).val = (t.val + 0) * 5000 + q.val := by
    show win0_7.index t (0 : Fin 2) * 5000 + 1 * q.val = _; omega
  have hi1 : ((((cfg0.win 7).blk t).view.emb (ix2 q j)) 1).val = j.val := by
    show win0_7.index t (1 : Fin 2) * 64 + 1 * j.val = _; omega
  have hrow : (row0 (((cfg0.win 7).blk t).view.emb (ix2 q j))).val = t.val * 5000 + q.val := by
    show (((((cfg0.win 7).blk t).view.emb (ix2 q j)) 0).val - 0) % 50000 = _
    rw [hi0]; have := q.isLt; omega
  show k0_pay1 (iblk0 V c 0 t) (iblk0 V c 2 t) (iblk0 V c 1 t) (iblk0 V c 3 t) (iblk0 V c 4 t) (iblk0 V c 5 t) (ix2 q j)
    = G0 _ _ _ _ _ _ (((cfg0.win 7).blk t).view.emb (ix2 q j))

  refine (Body.pay0_apply (iblk0 V c 0 t) (iblk0 V c 2 t) (iblk0 V c 1 t) (iblk0 V c 3 t) (iblk0 V c 4 t) (iblk0 V c 5 t) q j).trans ?_
  unfold G0
  have hj : (⟨((((cfg0.win 7).blk t).view.emb (ix2 q j)) 1).val, ((((cfg0.win 7).blk t).view.emb (ix2 q j)) 1).isLt⟩ : Fin 64) = j :=
    Fin.ext hi1
  rw [hj]
  have hA : (fun l : Fin 128 => iblk0 V c 0 t (ix2 q l))
      = fun l => V c (Pipeline.arrRef spec0 0) (ix2 (row0 (((cfg0.win 7).blk t).view.emb (ix2 q j))) l) :=
    funext fun l => blkA0 V c t q l _ hrow
  have hR : iblk0 V c 1 t (ix2 q 0)
      = V c (Pipeline.arrRef spec0 1) (ix2 (row0 (((cfg0.win 7).blk t).view.emb (ix2 q j))) 0) := blkR0 V c t q _ hrow
  have hW1 : (fun (l k : Fin 128) => iblk0 V c 2 t (ix2 l k)) = fun l k => V c (Pipeline.arrRef spec0 2) (ix2 l k) :=
    funext fun l => funext fun k => blkW1_0 V c t l k
  have hB1 : (fun k : Fin 128 => iblk0 V c 3 t (ix2 0 k)) = fun k => V c (Pipeline.arrRef spec0 3) (ix2 0 k) :=
    funext fun k => blkB1_0 V c t k
  have hW2 : (fun (k : Fin 128) (j' : Fin 64) => iblk0 V c 4 t (ix2 k j')) = fun k j' => V c (Pipeline.arrRef spec0 4) (ix2 k j') :=
    funext fun k => funext fun j' => blkW2_0 V c t k j'
  have hB2 : (fun j' : Fin 64 => iblk0 V c 5 t (ix2 0 j')) = fun j' => V c (Pipeline.arrRef spec0 5) (ix2 0 j') :=
    funext fun j' => blkB2_0 V c t j'
  rw [hA, hR, hW1, hB1, hW2, hB2]

/-- A row of the shared result is in point `t`'s output block iff each coordinate is in the block's range on its axis. -/
theorem mem_blk0 (t : Fin cfg0.N) (i : S170000x64.Idx) :
    i ∈ ((cfg0.win 7).blk t).view.set ↔ ∀ a : Fin 2, win0_7.index t a * S5000x64.size a ≤ (i a).val
      ∧ (i a).val < win0_7.index t a * S5000x64.size a + S5000x64.size a := by
  show i ∈ ((View.whole main_v76).slice (win0_7.rect t)).set ↔ _
  rw [View.set_slice_whole, Rect.mem_set_unit]
  exact Iff.rfl

/-- THE ROWS REGION 0 WRITES: 0 ≤ row < 50000. -/
theorem covered_iff0 (i : S170000x64.Idx) :
    (∃ t : Fin cfg0.N, (cfg0.win 7).flush t = true ∧ i ∈ ((cfg0.win 7).blk t).view.set)
      ↔ 0 ≤ (i 0).val ∧ (i 0).val < 50000 := by
  constructor
  · rintro ⟨t, -, hi⟩
    rw [mem_blk0] at hi
    have b0 : win0_7.index t (0 : Fin 2) * 5000 ≤ (i 0).val ∧ (i 0).val < win0_7.index t (0 : Fin 2) * 5000 + 5000 := hi 0
    have ht : t.val < 10 := t.isLt
    obtain ⟨-, -, -, -, -, -, -, -, -, -, -, -, e0, e1⟩ := idx_facts0 t
    omega
  · intro h
    have hi1 : (i 1).val < 64 := (i 1).isLt
    have hlt : ((i 0).val - 0) / 5000 < 10 := by omega
    obtain ⟨t, et⟩ : ∃ t : Fin cfg0.N, t.val = ((i 0).val - 0) / 5000 := ⟨⟨_, hlt⟩, rfl⟩
    obtain ⟨-, -, -, -, -, -, -, -, -, -, -, -, e0, e1⟩ := idx_facts0 t
    refine ⟨t, flush0_7 t, ?_⟩
    rw [mem_blk0]
    intro a
    match a with
    | ⟨0, _⟩ =>
      show win0_7.index t (0 : Fin 2) * 5000 ≤ (i 0).val ∧ (i 0).val < win0_7.index t (0 : Fin 2) * 5000 + 5000
      omega
    | ⟨1, _⟩ =>
      show win0_7.index t (1 : Fin 2) * 64 ≤ (i 1).val ∧ (i 1).val < win0_7.index t (1 : Fin 2) * 64 + 64
      omega

/-- THE SHARED RESULT AFTER REGION 0: the head on the rows it writes, what the region found elsewhere. -/
theorem final0 (c : Dev nD) : (dat0 V c).arrAt 7 cfg0.N
    = (fun i => if 0 ≤ (i 0).val ∧ (i 0).val < 50000 then
        G0 (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) i
      else V c (Pipeline.arrRef spec0 7) i) := by
  funext i
  rw [(dat0 V c).arrAt_eq_piecewise 7 _ (fun t _ => flushed0_eq V c t) i, A_eq0]
  exact if_congr (covered_iff0 i) rfl rfl

/-! ## Region 1: 20000 destination rows, written at rows 50000 … 69999 of the shared result -/

/-- The head's row for a row of the shared result. -/
def row1 (i : S170000x64.Idx) : Fin 20000 := ⟨((i 0).val - 50000) % 20000, Nat.mod_lt _ (by decide)⟩

/-- What region 1 leaves where it writes: the head of its six input arrays, at the head's row. -/
def G1 (A : S20000x128.Idx → EReal) (R : S20000x1.Idx → EReal) (W1 : S128x128.Idx → EReal) (B1 : S1x128.Idx → EReal)
    (W2 : S128x64.Idx → EReal) (B2 : S1x64.Idx → EReal) : S170000x64.Idx → EReal := fun i =>
  outOf (hiddenAfter (fun l => A (ix2 (row1 i) l)) (R (ix2 (row1 i) 0)) (fun l k => W1 (ix2 l k)) (fun k => B1 (ix2 0 k)))
    (fun k j => W2 (ix2 k j)) (fun j => B2 (ix2 0 j)) ⟨(i 1).val, (i 1).isLt⟩

/-- The printed index maps over the grid: the row-tiled windows move with the point, the weights and biases stay,
    the output's block is the point's shifted by 10 blocks. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_7.index t (0 : Fin 2) = t.val + 10 ∧ win1_7.index t (1 : Fin 2) = 0 :=
  (by decide +kernel : ∀ t : Fin grid1.N, _)

theorem blkA1 (c : Dev nD) (t : Fin cfg1.N) (q : Fin 5000) (l : Fin 128) (r : Fin 20000) (hr : r.val = t.val * 5000 + q.val) :
    iblk1 V c 0 t (ix2 q l) = V c (Pipeline.arrRef spec1 0) (ix2 r l) := by
  obtain ⟨e0, e1, -⟩ := idx_facts1 t
  show V c (Pipeline.arrRef spec1 0) (((cfg1.win 0).blk t).view.emb (ix2 q l)) = _
  refine congrArg _ (funext fun a => Fin.ext ?_)
  match a with
  | ⟨0, _⟩ => show win1_0.index t (0 : Fin 2) * 5000 + 1 * q.val = r.val; omega
  | ⟨1, _⟩ => show win1_0.index t (1 : Fin 2) * 128 + 1 * l.val = l.val; omega

theorem blkR1 (c : Dev nD) (t : Fin cfg1.N) (q : Fin 5000) (r : Fin 20000) (hr : r.val = t.val * 5000 + q.val) :
    iblk1 V c 1 t (ix2 q 0) = V c (Pipeline.arrRef spec1 1) (ix2 r 0) := by
  obtain ⟨-, -, e0, e1, -⟩ := idx_facts1 t
  show V c (Pipeline.arrRef spec1 1) (((cfg1.win 1).blk t).view.emb (ix2 q 0)) = _
  refine congrArg _ (funext fun a => Fin.ext ?_)
  match a with
  | ⟨0, _⟩ => show win1_1.index t (0 : Fin 2) * 5000 + 1 * q.val = r.val; omega
  | ⟨1, _⟩ => show win1_1.index t (1 : Fin 2) * 1 + 1 * 0 = 0; omega

theorem blkW1_1 (c : Dev nD) (t : Fin cfg1.N) (l k : Fin 128) :
    iblk1 V c 2 t (ix2 l k) = V c (Pipeline.arrRef spec1 2) (ix2 l k) := by
  obtain ⟨-, -, -, -, e0, e1, -⟩ := idx_facts1 t
  show V c (Pipeline.arrRef spec1 2) (((cfg1.win 2).blk t).view.emb (ix2 l k)) = _
  refine congrArg _ (funext fun a => Fin.ext ?_)
  match a with
  | ⟨0, _⟩ => show win1_2.index t (0 : Fin 2) * 128 + 1 * l.val = l.val; omega
  | ⟨1, _⟩ => show win1_2.index t (1 : Fin 2) * 128 + 1 * k.val = k.val; omega

theorem blkB1_1 (c : Dev nD) (t : Fin cfg1.N) (k : Fin 128) :
    iblk1 V c 3 t (ix2 0 k) = V c (Pipeline.arrRef spec1 3) (ix2 0 k) := by
  obtain ⟨-, -, -, -, -, -, e0, e1, -⟩ := idx_facts1 t
  show V c (Pipeline.arrRef spec1 3) (((cfg1.win 3).blk t).view.emb (ix2 0 k)) = _
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * k.val = k.val; omega

theorem blkW2_1 (c : Dev nD) (t : Fin cfg1.N) (k : Fin 128) (j : Fin 64) :
    iblk1 V c 4 t (ix2 k j) = V c (Pipeline.arrRef spec1 4) (ix2 k j) := by
  obtain ⟨-, -, -, -, -, -, -, -, e0, e1, -⟩ := idx_facts1 t
  show V c (Pipeline.arrRef spec1 4) (((cfg1.win 4).blk t).view.emb (ix2 k j)) = _
  refine congrArg _ (funext fun a => Fin.ext ?_)
  match a with
  | ⟨0, _⟩ => show win1_4.index t (0 : Fin 2) * 128 + 1 * k.val = k.val; omega
  | ⟨1, _⟩ => show win1_4.index t (1 : Fin 2) * 64 + 1 * j.val = j.val; omega

theorem blkB2_1 (c : Dev nD) (t : Fin cfg1.N) (j : Fin 64) :
    iblk1 V c 5 t (ix2 0 j) = V c (Pipeline.arrRef spec1 5) (ix2 0 j) := by
  obtain ⟨-, -, -, -, -, -, -, -, -, -, e0, e1, -⟩ := idx_facts1 t
  show V c (Pipeline.arrRef spec1 5) (((cfg1.win 5).blk t).view.emb (ix2 0 j)) = _
  refine congrArg _ (funext fun a => Fin.ext ?_)
  match a with
  | ⟨0, _⟩ => show win1_5.index t (0 : Fin 2) * 1 + 1 * 0 = 0; omega
  | ⟨1, _⟩ => show win1_5.index t (1 : Fin 2) * 64 + 1 * j.val = j.val; omega

set_option maxHeartbeats 1000000 in
/-- WHAT POINT `t` WRITES BACK is block `t` of `G1` of the region's input arrays as it finds them. -/
theorem flushed1_eq (c : Dev nD) (t : Fin cfg1.N) :
    (dat1 V c).flushed 7 t = ((cfg1.win 7).blk t).view.read (Elt Ideal)
      (G1 (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S5000x1) hz,
    View.ld_unit_zero (S := S1x128) hz, View.ld_unit_zero (S := S128x64) hz, View.ld_unit_zero (S := S1x64) hz]
  funext y
  obtain ⟨q, j, rfl⟩ : ∃ (q : Fin 5000) (j : Fin 64), y = ix2 q j := ⟨y 0, y 1, eq_ix2 y⟩
  have ht : t.val < 4 := t.isLt
  obtain ⟨-, -, -, -, -, -, -, -, -, -, -, -, e0, e1⟩ := idx_facts1 t
  have hi0 : ((((cfg1.win 7).blk t).view.emb (ix2 q j)) 0).val = (t.val + 10) * 5000 + q.val := by
    show win1_7.index t (0 : Fin 2) * 5000 + 1 * q.val = _; omega
  have hi1 : ((((cfg1.win 7).blk t).view.emb (ix2 q j)) 1).val = j.val := by
    show win1_7.index t (1 : Fin 2) * 64 + 1 * j.val = _; omega
  have hrow : (row1 (((cfg1.win 7).blk t).view.emb (ix2 q j))).val = t.val * 5000 + q.val := by
    show (((((cfg1.win 7).blk t).view.emb (ix2 q j)) 0).val - 50000) % 20000 = _
    rw [hi0]; have := q.isLt; omega
  show k1_pay1 (iblk1 V c 0 t) (iblk1 V c 2 t) (iblk1 V c 1 t) (iblk1 V c 3 t) (iblk1 V c 4 t) (iblk1 V c 5 t) (ix2 q j)
    = G1 _ _ _ _ _ _ (((cfg1.win 7).blk t).view.emb (ix2 q j))
  refine (Body.pay1_apply (iblk1 V c 0 t) (iblk1 V c 2 t) (iblk1 V c 1 t) (iblk1 V c 3 t) (iblk1 V c 4 t) (iblk1 V c 5 t) q j).trans ?_
  unfold G1
  have hj : (⟨((((cfg1.win 7).blk t).view.emb (ix2 q j)) 1).val, ((((cfg1.win 7).blk t).view.emb (ix2 q j)) 1).isLt⟩ : Fin 64) = j :=
    Fin.ext hi1
  rw [hj]
  have hA : (fun l : Fin 128 => iblk1 V c 0 t (ix2 q l))
      = fun l => V c (Pipeline.arrRef spec1 0) (ix2 (row1 (((cfg1.win 7).blk t).view.emb (ix2 q j))) l) :=
    funext fun l => blkA1 V c t q l _ hrow
  have hR : iblk1 V c 1 t (ix2 q 0)
      = V c (Pipeline.arrRef spec1 1) (ix2 (row1 (((cfg1.win 7).blk t).view.emb (ix2 q j))) 0) := blkR1 V c t q _ hrow
  have hW1 : (fun (l k : Fin 128) => iblk1 V c 2 t (ix2 l k)) = fun l k => V c (Pipeline.arrRef spec1 2) (ix2 l k) :=
    funext fun l => funext fun k => blkW1_1 V c t l k
  have hB1 : (fun k : Fin 128 => iblk1 V c 3 t (ix2 0 k)) = fun k => V c (Pipeline.arrRef spec1 3) (ix2 0 k) :=
    funext fun k => blkB1_1 V c t k
  have hW2 : (fun (k : Fin 128) (j' : Fin 64) => iblk1 V c 4 t (ix2 k j')) = fun k j' => V c (Pipeline.arrRef spec1 4) (ix2 k j') :=
    funext fun k => funext fun j' => blkW2_1 V c t k j'
  have hB2 : (fun j' : Fin 64 => iblk1 V c 5 t (ix2 0 j')) = fun j' => V c (Pipeline.arrRef spec1 5) (ix2 0 j') :=
    funext fun j' => blkB2_1 V c t j'
  rw [hA, hR, hW1, hB1, hW2, hB2]

/-- A row of the shared result is in point `t`'s output block iff each coordinate is in the block's range on its axis. -/
theorem mem_blk1 (t : Fin cfg1.N) (i : S170000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v80).slice (win1_7.rect t)).set ↔ _
  rw [View.set_slice_whole, Rect.mem_set_unit]
  exact Iff.rfl

/-- THE ROWS REGION 1 WRITES: 50000 ≤ row < 70000. -/
theorem covered_iff1 (i : S170000x64.Idx) :
    (∃ t : Fin cfg1.N, (cfg1.win 7).flush t = true ∧ i ∈ ((cfg1.win 7).blk t).view.set)
      ↔ 50000 ≤ (i 0).val ∧ (i 0).val < 70000 := by
  constructor
  · rintro ⟨t, -, hi⟩
    rw [mem_blk1] at hi
    have b0 : win1_7.index t (0 : Fin 2) * 5000 ≤ (i 0).val ∧ (i 0).val < win1_7.index t (0 : Fin 2) * 5000 + 5000 := hi 0
    have ht : t.val < 4 := t.isLt
    obtain ⟨-, -, -, -, -, -, -, -, -, -, -, -, e0, e1⟩ := idx_facts1 t
    omega
  · intro h
    have hi1 : (i 1).val < 64 := (i 1).isLt
    have hlt : ((i 0).val - 50000) / 5000 < 4 := by omega
    obtain ⟨t, et⟩ : ∃ t : Fin cfg1.N, t.val = ((i 0).val - 50000) / 5000 := ⟨⟨_, hlt⟩, rfl⟩
    obtain ⟨-, -, -, -, -, -, -, -, -, -, -, -, e0, e1⟩ := idx_facts1 t
    refine ⟨t, flush1_7 t, ?_⟩
    rw [mem_blk1]
    intro a
    match a with
    | ⟨0, _⟩ =>
      show win1_7.index t (0 : Fin 2) * 5000 ≤ (i 0).val ∧ (i 0).val < win1_7.index t (0 : Fin 2) * 5000 + 5000
      omega
    | ⟨1, _⟩ =>
      show win1_7.index t (1 : Fin 2) * 64 ≤ (i 1).val ∧ (i 1).val < win1_7.index t (1 : Fin 2) * 64 + 64
      omega

/-- THE SHARED RESULT AFTER REGION 1: the head on the rows it writes, what the region found elsewhere. -/
theorem final1 (c : Dev nD) : (dat1 V c).arrAt 7 cfg1.N
    = (fun i => if 50000 ≤ (i 0).val ∧ (i 0).val < 70000 then
        G1 (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) i
      else V c (Pipeline.arrRef spec1 7) i) := by
  funext i
  rw [(dat1 V c).arrAt_eq_piecewise 7 _ (fun t _ => flushed1_eq V c t) i, A_eq1]
  exact if_congr (covered_iff1 i) rfl rfl

/-! ## Region 2: 100000 destination rows, written at rows 70000 … 169999 of the shared result -/

/-- The head's row for a row of the shared result. -/
def row2 (i : S170000x64.Idx) : Fin 100000 := ⟨((i 0).val - 70000) % 100000, Nat.mod_lt _ (by decide)⟩

/-- What region 2 leaves where it writes: the head of its six input arrays, at the head's row. -/
def G2 (A : S100000x128.Idx → EReal) (R : S100000x1.Idx → EReal) (W1 : S128x128.Idx → EReal) (B1 : S1x128.Idx → EReal)
    (W2 : S128x64.Idx → EReal) (B2 : S1x64.Idx → EReal) : S170000x64.Idx → EReal := fun i =>
  outOf (hiddenAfter (fun l => A (ix2 (row2 i) l)) (R (ix2 (row2 i) 0)) (fun l k => W1 (ix2 l k)) (fun k => B1 (ix2 0 k)))
    (fun k j => W2 (ix2 k j)) (fun j => B2 (ix2 0 j)) ⟨(i 1).val, (i 1).isLt⟩

/-- The printed index maps over the grid: the row-tiled windows move with the point, the weights and biases stay,
    the output's block is the point's shifted by 14 blocks. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_7.index t (0 : Fin 2) = t.val + 14 ∧ win2_7.index t (1 : Fin 2) = 0 :=
  (by decide +kernel : ∀ t : Fin grid2.N, _)

theorem blkA2 (c : Dev nD) (t : Fin cfg2.N) (q : Fin 5000) (l : Fin 128) (r : Fin 100000) (hr : r.val = t.val * 5000 + q.val) :
    iblk2 V c 0 t (ix2 q l) = V c (Pipeline.arrRef spec2 0) (ix2 r l) := by
  obtain ⟨e0, e1, -⟩ := idx_facts2 t
  show V c (Pipeline.arrRef spec2 0) (((cfg2.win 0).blk t).view.emb (ix2 q l)) = _
  refine congrArg _ (funext fun a => Fin.ext ?_)
  match a with
  | ⟨0, _⟩ => show win2_0.index t (0 : Fin 2) * 5000 + 1 * q.val = r.val; omega
  | ⟨1, _⟩ => show win2_0.index t (1 : Fin 2) * 128 + 1 * l.val = l.val; omega

theorem blkR2 (c : Dev nD) (t : Fin cfg2.N) (q : Fin 5000) (r : Fin 100000) (hr : r.val = t.val * 5000 + q.val) :
    iblk2 V c 1 t (ix2 q 0) = V c (Pipeline.arrRef spec2 1) (ix2 r 0) := by
  obtain ⟨-, -, e0, e1, -⟩ := idx_facts2 t
  show V c (Pipeline.arrRef spec2 1) (((cfg2.win 1).blk t).view.emb (ix2 q 0)) = _
  refine congrArg _ (funext fun a => Fin.ext ?_)
  match a with
  | ⟨0, _⟩ => show win2_1.index t (0 : Fin 2) * 5000 + 1 * q.val = r.val; omega
  | ⟨1, _⟩ => show win2_1.index t (1 : Fin 2) * 1 + 1 * 0 = 0; omega

theorem blkW1_2 (c : Dev nD) (t : Fin cfg2.N) (l k : Fin 128) :
    iblk2 V c 2 t (ix2 l k) = V c (Pipeline.arrRef spec2 2) (ix2 l k) := by
  obtain ⟨-, -, -, -, e0, e1, -⟩ := idx_facts2 t
  show V c (Pipeline.arrRef spec2 2) (((cfg2.win 2).blk t).view.emb (ix2 l k)) = _
  refine congrArg _ (funext fun a => Fin.ext ?_)
  match a with
  | ⟨0, _⟩ => show win2_2.index t (0 : Fin 2) * 128 + 1 * l.val = l.val; omega
  | ⟨1, _⟩ => show win2_2.index t (1 : Fin 2) * 128 + 1 * k.val = k.val; omega

theorem blkB1_2 (c : Dev nD) (t : Fin cfg2.N) (k : Fin 128) :
    iblk2 V c 3 t (ix2 0 k) = V c (Pipeline.arrRef spec2 3) (ix2 0 k) := by
  obtain ⟨-, -, -, -, -, -, e0, e1, -⟩ := idx_facts2 t
  show V c (Pipeline.arrRef spec2 3) (((cfg2.win 3).blk t).view.emb (ix2 0 k)) = _
  refine congrArg _ (funext fun a => Fin.ext ?_)
  match a with
  | ⟨0, _⟩ => show win2_3.index t (0 : Fin 2) * 1 + 1 * 0 = 0; omega
  | ⟨1, _⟩ => show win2_3.index t (1 : Fin 2) * 128 + 1 * k.val = k.val; omega

theorem blkW2_2 (c : Dev nD) (t : Fin cfg2.N) (k : Fin 128) (j : Fin 64) :
    iblk2 V c 4 t (ix2 k j) = V c (Pipeline.arrRef spec2 4) (ix2 k j) := by
  obtain ⟨-, -, -, -, -, -, -, -, e0, e1, -⟩ := idx_facts2 t
  show V c (Pipeline.arrRef spec2 4) (((cfg2.win 4).blk t).view.emb (ix2 k j)) = _
  refine congrArg _ (funext fun a => Fin.ext ?_)
  match a with
  | ⟨0, _⟩ => show win2_4.index t (0 : Fin 2) * 128 + 1 * k.val = k.val; omega
  | ⟨1, _⟩ => show win2_4.index t (1 : Fin 2) * 64 + 1 * j.val = j.val; omega

theorem blkB2_2 (c : Dev nD) (t : Fin cfg2.N) (j : Fin 64) :
    iblk2 V c 5 t (ix2 0 j) = V c (Pipeline.arrRef spec2 5) (ix2 0 j) := by
  obtain ⟨-, -, -, -, -, -, -, -, -, -, e0, e1, -⟩ := idx_facts2 t
  show V c (Pipeline.arrRef spec2 5) (((cfg2.win 5).blk t).view.emb (ix2 0 j)) = _
  refine congrArg _ (funext fun a => Fin.ext ?_)
  match a with
  | ⟨0, _⟩ => show win2_5.index t (0 : Fin 2) * 1 + 1 * 0 = 0; omega
  | ⟨1, _⟩ => show win2_5.index t (1 : Fin 2) * 64 + 1 * j.val = j.val; omega

set_option maxHeartbeats 1000000 in
/-- WHAT POINT `t` WRITES BACK is block `t` of `G2` of the region's input arrays as it finds them. -/
theorem flushed2_eq (c : Dev nD) (t : Fin cfg2.N) :
    (dat2 V c).flushed 7 t = ((cfg2.win 7).blk t).view.read (Elt Ideal)
      (G2 (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) := by
  show (cfg2.win 7).cut (grid2.coords t) ((dat2 V c).after 7 t) = _
  rw [after2_7]
  unfold out2_7
  rw [View.canon_unit_zero hz]
  simp only [View.ld_unit_zero (S := S5000x128) hz, View.ld_unit_zero (S := S128x128) hz, View.ld_unit_zero (S := S5000x1) hz,
    View.ld_unit_zero (S := S1x128) hz, View.ld_unit_zero (S := S128x64) hz, View.ld_unit_zero (S := S1x64) hz]
  funext y
  obtain ⟨q, j, rfl⟩ : ∃ (q : Fin 5000) (j : Fin 64), y = ix2 q j := ⟨y 0, y 1, eq_ix2 y⟩
  have ht : t.val < 20 := t.isLt
  obtain ⟨-, -, -, -, -, -, -, -, -, -, -, -, e0, e1⟩ := idx_facts2 t
  have hi0 : ((((cfg2.win 7).blk t).view.emb (ix2 q j)) 0).val = (t.val + 14) * 5000 + q.val := by
    show win2_7.index t (0 : Fin 2) * 5000 + 1 * q.val = _; omega
  have hi1 : ((((cfg2.win 7).blk t).view.emb (ix2 q j)) 1).val = j.val := by
    show win2_7.index t (1 : Fin 2) * 64 + 1 * j.val = _; omega
  have hrow : (row2 (((cfg2.win 7).blk t).view.emb (ix2 q j))).val = t.val * 5000 + q.val := by
    show (((((cfg2.win 7).blk t).view.emb (ix2 q j)) 0).val - 70000) % 100000 = _
    rw [hi0]; have := q.isLt; omega
  show k2_pay1 (iblk2 V c 0 t) (iblk2 V c 2 t) (iblk2 V c 1 t) (iblk2 V c 3 t) (iblk2 V c 4 t) (iblk2 V c 5 t) (ix2 q j)
    = G2 _ _ _ _ _ _ (((cfg2.win 7).blk t).view.emb (ix2 q j))
  refine (Body.pay2_apply (iblk2 V c 0 t) (iblk2 V c 2 t) (iblk2 V c 1 t) (iblk2 V c 3 t) (iblk2 V c 4 t) (iblk2 V c 5 t) q j).trans ?_
  unfold G2
  have hj : (⟨((((cfg2.win 7).blk t).view.emb (ix2 q j)) 1).val, ((((cfg2.win 7).blk t).view.emb (ix2 q j)) 1).isLt⟩ : Fin 64) = j :=
    Fin.ext hi1
  rw [hj]
  have hA : (fun l : Fin 128 => iblk2 V c 0 t (ix2 q l))
      = fun l => V c (Pipeline.arrRef spec2 0) (ix2 (row2 (((cfg2.win 7).blk t).view.emb (ix2 q j))) l) :=
    funext fun l => blkA2 V c t q l _ hrow
  have hR : iblk2 V c 1 t (ix2 q 0)
      = V c (Pipeline.arrRef spec2 1) (ix2 (row2 (((cfg2.win 7).blk t).view.emb (ix2 q j))) 0) := blkR2 V c t q _ hrow
  have hW1 : (fun (l k : Fin 128) => iblk2 V c 2 t (ix2 l k)) = fun l k => V c (Pipeline.arrRef spec2 2) (ix2 l k) :=
    funext fun l => funext fun k => blkW1_2 V c t l k
  have hB1 : (fun k : Fin 128 => iblk2 V c 3 t (ix2 0 k)) = fun k => V c (Pipeline.arrRef spec2 3) (ix2 0 k) :=
    funext fun k => blkB1_2 V c t k
  have hW2 : (fun (k : Fin 128) (j' : Fin 64) => iblk2 V c 4 t (ix2 k j')) = fun k j' => V c (Pipeline.arrRef spec2 4) (ix2 k j') :=
    funext fun k => funext fun j' => blkW2_2 V c t k j'
  have hB2 : (fun j' : Fin 64 => iblk2 V c 5 t (ix2 0 j')) = fun j' => V c (Pipeline.arrRef spec2 5) (ix2 0 j') :=
    funext fun j' => blkB2_2 V c t j'
  rw [hA, hR, hW1, hB1, hW2, hB2]

/-- A row of the shared result is in point `t`'s output block iff each coordinate is in the block's range on its axis. -/
theorem mem_blk2 (t : Fin cfg2.N) (i : S170000x64.Idx) :
    i ∈ ((cfg2.win 7).blk t).view.set ↔ ∀ a : Fin 2, win2_7.index t a * S5000x64.size a ≤ (i a).val
      ∧ (i a).val < win2_7.index t a * S5000x64.size a + S5000x64.size a := by
  show i ∈ ((View.whole main_v84).slice (win2_7.rect t)).set ↔ _
  rw [View.set_slice_whole, Rect.mem_set_unit]
  exact Iff.rfl

/-- THE ROWS REGION 2 WRITES: 70000 ≤ row < 170000. -/
theorem covered_iff2 (i : S170000x64.Idx) :
    (∃ t : Fin cfg2.N, (cfg2.win 7).flush t = true ∧ i ∈ ((cfg2.win 7).blk t).view.set)
      ↔ 70000 ≤ (i 0).val ∧ (i 0).val < 170000 := by
  constructor
  · rintro ⟨t, -, hi⟩
    rw [mem_blk2] at hi
    have b0 : win2_7.index t (0 : Fin 2) * 5000 ≤ (i 0).val ∧ (i 0).val < win2_7.index t (0 : Fin 2) * 5000 + 5000 := hi 0
    have ht : t.val < 20 := t.isLt
    obtain ⟨-, -, -, -, -, -, -, -, -, -, -, -, e0, e1⟩ := idx_facts2 t
    omega
  · intro h
    have hi1 : (i 1).val < 64 := (i 1).isLt
    have hlt : ((i 0).val - 70000) / 5000 < 20 := by omega
    obtain ⟨t, et⟩ : ∃ t : Fin cfg2.N, t.val = ((i 0).val - 70000) / 5000 := ⟨⟨_, hlt⟩, rfl⟩
    obtain ⟨-, -, -, -, -, -, -, -, -, -, -, -, e0, e1⟩ := idx_facts2 t
    refine ⟨t, flush2_7 t, ?_⟩
    rw [mem_blk2]
    intro a
    match a with
    | ⟨0, _⟩ =>
      show win2_7.index t (0 : Fin 2) * 5000 ≤ (i 0).val ∧ (i 0).val < win2_7.index t (0 : Fin 2) * 5000 + 5000
      omega
    | ⟨1, _⟩ =>
      show win2_7.index t (1 : Fin 2) * 64 ≤ (i 1).val ∧ (i 1).val < win2_7.index t (1 : Fin 2) * 64 + 64
      omega

/-- THE SHARED RESULT AFTER REGION 2: the head on the rows it writes, what the region found elsewhere. -/
theorem final2 (c : Dev nD) : (dat2 V c).arrAt 7 cfg2.N
    = (fun i => if 70000 ≤ (i 0).val ∧ (i 0).val < 170000 then
        G2 (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) i
      else V c (Pipeline.arrRef spec2 7) i) := by
  funext i
  rw [(dat2 V c).arrAt_eq_piecewise 7 _ (fun t _ => flushed2_eq V c t) i, A_eq2]
  exact if_congr (covered_iff2 i) rfl rfl

end Cert.KernelIdeal.Blocks
end
-- ==== Proof.Entry.lean ====
/-
  What each region finds in its input arrays, in terms of the launch memory.

  The host lines before the regions compute, per head, the degree clips, the source-normalised features, their gather
  along the edges and scatter-sum onto the destinations, the destination degree factor as a column, and the biases as
  rows; between regions they only re-lay the next head's operands and hand the shared result on. Read back through the
  program's host stretches and regions, each such array is the SAME closed stage the reference computes it by (the
  reference's stage functions are used as the names of those values), of the launch contents of the argument arrays;
  the weights are the argument arrays themselves; the shared result enters a region as the previous region left it.
  Each stretch is first read over an arbitrary valuation, then chained from the launch memory.
-/
import proofs.«156169_j3143916060812_2_alg».proof.Proof.Gen.KernelIdeal.Frame
import proofs.«156169_j3143916060812_2_alg».proof.Proof.Gen.ReferenceIdeal.Read
import Idealize.ShloMosaic.Lib.StableHlo.Run

set_option maxRecDepth 16384

noncomputable section
namespace Cert.KernelIdeal.Entry

open Idealize.ShloMosaic Idealize.ShloMosaic.TcCoe Idealize.SL.Sem Idealize.ShloMosaic.StableHlo
open Cert.KernelIdeal Cert.KernelIdeal.Gen

/-- Closes `∀ op ∈ ops, b ∉ op.writes` for a literal stretch of host operations and a literal buffer: every operation
    writes one buffer, and it is another one. -/
macro "unwritten" : tactic => `(tactic| (
  refine List.forall_iff_forall_mem.mp ?_
  simp only [hostOps0, hostOps0_1, hostOps0_2, hostOps0_3, hostOps0_4, hostOps0_5, hostOps0_6, hostOps0_7, hostOps0_8, hostOps0_9, hostOps0_10, hostOps0_11, hostOps0_12, hostOps1, hostOps2, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg)

/-- Walks a read of the fold back through every stretch that does not write the buffer and every region whose arrays
    do not include it. -/
macro "walk" : tactic => `(tactic| repeat (first
  | (rw [StableHlo.after_of_forall_not_mem]; rotate_left; unwritten)
  | (rw [W18_of_ne]; rotate_left; decide)
  | (rw [W16_of_ne]; rotate_left; decide)
  | (rw [W14_of_ne]; rotate_left; decide)
  | dsimp only [W17, W15, W13, W12, W11, W10, W9, W8, W7, W6, W5, W4, W3, W2, W1]))

/-! ## Each stretch over an arbitrary valuation -/

theorem s0_v3 (V : Valuation τ sig (Elt Ideal)) (x3 : (⟨S1600000, .i32⟩ : BufTy).Contents (Elt Ideal)) (h3 : V (Proc.devRef .tc main_arg3) = x3) :
    (StableHlo.after hostOps0 V (Proc.devRef .tc main_v3) : (⟨S50000, .f32⟩ : BufTy).Contents (Elt Ideal)) = Cert.ReferenceIdeal.Read.val_main_v3 (F := Ideal) x3 := by
  dsimp only [hostOps0]
  after_results
  rw [h3]
  rfl

theorem s0_cst1 (V : Valuation τ sig (Elt Ideal))   :
    (StableHlo.after hostOps0 V (Proc.devRef .tc main_cst_1) : (⟨S_, .f32⟩ : BufTy).Contents (Elt Ideal)) = Cert.ReferenceIdeal.Read.val_main_cst_1 (F := Ideal) := by
  dsimp only [hostOps0]
  after_results
  rfl

theorem s0_v0 (V : Valuation τ sig (Elt Ideal))   :
    (StableHlo.after hostOps0 V (Proc.devRef .tc main_v0) : (⟨S1600000, .f32⟩ : BufTy).Contents (Elt Ideal)) = Cert.ReferenceIdeal.Read.val_main_v0 (F := Ideal) := by
  dsimp only [hostOps0]
  after_results
  rfl

theorem s1_v4 (V : Valuation τ sig (Elt Ideal)) (a : (⟨S_, .f32⟩ : BufTy).Contents (Elt Ideal)) (d : (⟨S50000, .f32⟩ : BufTy).Contents (Elt Ideal)) (ha : V (Proc.devRef .tc main_cst_1) = a) (hd : V (Proc.devRef .tc main_v3) = d) :
    (StableHlo.after hostOps0_1 V (Proc.devRef .tc main_v4) : (⟨S50000, .f32⟩ : BufTy).Contents (Elt Ideal)) = maximumf (F := Ideal) (φ := .f32) (broadcastInDim S50000 ![] bcast_S_S50000 (id a)) d := by
  dsimp only [hostOps0_1]
  after_results
  rw [ha, hd]
  rfl

theorem s2_v7 (V : Valuation τ sig (Elt Ideal)) (x4 : (⟨S1600000, .i32⟩ : BufTy).Contents (Elt Ideal)) (h4 : V (Proc.devRef .tc main_arg4) = x4) (h0 : V (Proc.devRef .tc main_v0) = Cert.ReferenceIdeal.Read.val_main_v0 (F := Ideal)) :
    (StableHlo.after hostOps0_2 V (Proc.devRef .tc main_v7) : (⟨S50000, .f32⟩ : BufTy).Contents (Elt Ideal)) = Cert.ReferenceIdeal.Read.val_main_v7 (F := Ideal) x4 := by
  dsimp only [hostOps0_2]
  after_results
  rw [h4, h0]
  rfl

theorem s2_cst3 (V : Valuation τ sig (Elt Ideal))   :
    (StableHlo.after hostOps0_2 V (Proc.devRef .tc main_cst_3) : (⟨S_, .f32⟩ : BufTy).Contents (Elt Ideal)) = Cert.ReferenceIdeal.Read.val_main_cst_3 (F := Ideal) := by
  dsimp only [hostOps0_2]
  after_results
  rfl

theorem s3_v8 (V : Valuation τ sig (Elt Ideal)) (a : (⟨S_, .f32⟩ : BufTy).Contents (Elt Ideal)) (d : (⟨S50000, .f32⟩ : BufTy).Contents (Elt Ideal)) (ha : V (Proc.devRef .tc main_cst_3) = a) (hd : V (Proc.devRef .tc main_v7) = d) :
    (StableHlo.after hostOps0_3 V (Proc.devRef .tc main_v8) : (⟨S50000, .f32⟩ : BufTy).Contents (Elt Ideal)) = maximumf (F := Ideal) (φ := .f32) (broadcastInDim S50000 ![] bcast_S_S50000 (id a)) d := by
  dsimp only [hostOps0_3]
  after_results
  rw [ha, hd]
  rfl

set_option maxHeartbeats 1000000 in
theorem s4_v22 (V : Valuation τ sig (Elt Ideal)) (x0 : (⟨S50000x128, .f32⟩ : BufTy).Contents (Elt Ideal)) (x3 : (⟨S1600000, .i32⟩ : BufTy).Contents (Elt Ideal)) (x4 : (⟨S1600000, .i32⟩ : BufTy).Contents (Elt Ideal)) (h0 : V (Proc.devRef .tc main_arg0) = x0) (h3 : V (Proc.devRef .tc main_arg3) = x3) (h4 : V (Proc.devRef .tc main_arg4) = x4) (hd : V (Proc.devRef .tc main_v4) = Cert.ReferenceIdeal.Read.val_main_v4 (F := Ideal) x3) :
    (StableHlo.after hostOps0_4 V (Proc.devRef .tc main_v22) : (⟨S50000x128, .f32⟩ : BufTy).Contents (Elt Ideal)) = Cert.ReferenceIdeal.Read.val_main_v22 (F := Ideal) x0 x3 x4 := by
  dsimp only [hostOps0_4]
  after_results_simp
  rw [h0, h3, h4, hd]
  rfl

set_option maxHeartbeats 1000000 in
theorem s4_v23 (V : Valuation τ sig (Elt Ideal)) (x4 : (⟨S1600000, .i32⟩ : BufTy).Contents (Elt Ideal)) (hd : V (Proc.devRef .tc main_v8) = Cert.ReferenceIdeal.Read.val_main_v8 (F := Ideal) x4) :
    (StableHlo.after hostOps0_4 V (Proc.devRef .tc main_v23) : (⟨S50000, .f32⟩ : BufTy).Contents (Elt Ideal)) = Cert.ReferenceIdeal.Read.val_main_v23 (F := Ideal) x4 := by
  dsimp only [hostOps0_4]
  after_results_simp
  rw [hd]
  rfl

set_option maxHeartbeats 1000000 in
theorem s4_v27 (V : Valuation τ sig (Elt Ideal)) (x5 : (⟨S100000, .i32⟩ : BufTy).Contents (Elt Ideal)) (h5 : V (Proc.devRef .tc main_arg5) = x5) :
    (StableHlo.after hostOps0_4 V (Proc.devRef .tc main_v27) : (⟨S100000, .f32⟩ : BufTy).Contents (Elt Ideal)) = Cert.ReferenceIdeal.Read.val_main_v34 (F := Ideal) x5 := by
  dsimp only [hostOps0_4]
  after_results_simp
  rw [h5]
  rfl

set_option maxHeartbeats 1000000 in
theorem s4_cst8 (V : Valuation τ sig (Elt Ideal))   :
    (StableHlo.after hostOps0_4 V (Proc.devRef .tc main_cst_8) : (⟨S_, .f32⟩ : BufTy).Contents (Elt Ideal)) = Cert.ReferenceIdeal.Read.val_main_cst_8 (F := Ideal) := by
  dsimp only [hostOps0_4]
  after_results_simp
  rfl

set_option maxHeartbeats 1000000 in
theorem s4_v24 (V : Valuation τ sig (Elt Ideal))   :
    (StableHlo.after hostOps0_4 V (Proc.devRef .tc main_v24) : (⟨S100000, .f32⟩ : BufTy).Contents (Elt Ideal)) = Cert.ReferenceIdeal.Read.val_main_v31 (F := Ideal) := by
  dsimp only [hostOps0_4]
  after_results_simp
  rfl

theorem s5_v28 (V : Valuation τ sig (Elt Ideal)) (a : (⟨S_, .f32⟩ : BufTy).Contents (Elt Ideal)) (d : (⟨S100000, .f32⟩ : BufTy).Contents (Elt Ideal)) (ha : V (Proc.devRef .tc main_cst_8) = a) (hd : V (Proc.devRef .tc main_v27) = d) :
    (StableHlo.after hostOps0_5 V (Proc.devRef .tc main_v28) : (⟨S100000, .f32⟩ : BufTy).Contents (Elt Ideal)) = maximumf (F := Ideal) (φ := .f32) (broadcastInDim S100000 ![] bcast_S_S100000 (id a)) d := by
  dsimp only [hostOps0_5]
  after_results
  rw [ha, hd]
  rfl

theorem s6_v31 (V : Valuation τ sig (Elt Ideal)) (x6 : (⟨S100000, .i32⟩ : BufTy).Contents (Elt Ideal)) (h6 : V (Proc.devRef .tc main_arg6) = x6) (h24 : V (Proc.devRef .tc main_v24) = Cert.ReferenceIdeal.Read.val_main_v31 (F := Ideal)) :
    (StableHlo.after hostOps0_6 V (Proc.devRef .tc main_v31) : (⟨S20000, .f32⟩ : BufTy).Contents (Elt Ideal)) = Cert.ReferenceIdeal.Read.val_main_v38 (F := Ideal) x6 := by
  dsimp only [hostOps0_6]
  after_results
  rw [h6, h24]
  rfl

theorem s6_cst10 (V : Valuation τ sig (Elt Ideal))   :
    (StableHlo.after hostOps0_6 V (Proc.devRef .tc main_cst_10) : (⟨S_, .f32⟩ : BufTy).Contents (Elt Ideal)) = Cert.ReferenceIdeal.Read.val_main_cst_10 (F := Ideal) := by
  dsimp only [hostOps0_6]
  after_results
  rfl

theorem s7_v32 (V : Valuation τ sig (Elt Ideal)) (a : (⟨S_, .f32⟩ : BufTy).Contents (Elt Ideal)) (d : (⟨S20000, .f32⟩ : BufTy).Contents (Elt Ideal)) (ha : V (Proc.devRef .tc main_cst_10) = a) (hd : V (Proc.devRef .tc main_v31) = d) :
    (StableHlo.after hostOps0_7 V (Proc.devRef .tc main_v32) : (⟨S20000, .f32⟩ : BufTy).Contents (Elt Ideal)) = maximumf (F := Ideal) (φ := .f32) (broadcastInDim S20000 ![] bcast_S_S20000 (id a)) d := by
  dsimp only [hostOps0_7]
  after_results
  rw [ha, hd]
  rfl

set_option maxHeartbeats 1000000 in
theorem s8_v46 (V : Valuation τ sig (Elt Ideal)) (x1 : (⟨S100000x128, .f32⟩ : BufTy).Contents (Elt Ideal)) (x5 : (⟨S100000, .i32⟩ : BufTy).Contents (Elt Ideal)) (x6 : (⟨S100000, .i32⟩ : BufTy).Contents (Elt Ideal)) (h1 : V (Proc.devRef .tc main_arg1) = x1) (h5 : V (Proc.devRef .tc main_arg5) = x5) (h6 : V (Proc.devRef .tc main_arg6) = x6) (hd : V (Proc.devRef .tc main_v28) = Cert.ReferenceIdeal.Read.val_main_v35 (F := Ideal) x5) :
    (StableHlo.after hostOps0_8 V (Proc.devRef .tc main_v46) : (⟨S20000x128, .f32⟩ : BufTy).Contents (Elt Ideal)) = Cert.ReferenceIdeal.Read.val_main_v53 (F := Ideal) x1 x5 x6 := by
  dsimp only [hostOps0_8]
  after_results_simp
  rw [h1, h5, h6, hd]
  rfl

set_option maxHeartbeats 1000000 in
theorem s8_v47 (V : Valuation τ sig (Elt Ideal)) (x6 : (⟨S100000, .i32⟩ : BufTy).Contents (Elt Ideal)) (hd : V (Proc.devRef .tc main_v32) = Cert.ReferenceIdeal.Read.val_main_v39 (F := Ideal) x6) :
    (StableHlo.after hostOps0_8 V (Proc.devRef .tc main_v47) : (⟨S20000, .f32⟩ : BufTy).Contents (Elt Ideal)) = Cert.ReferenceIdeal.Read.val_main_v54 (F := Ideal) x6 := by
  dsimp only [hostOps0_8]
  after_results_simp
  rw [hd]
  rfl

set_option maxHeartbeats 1000000 in
theorem s8_v51 (V : Valuation τ sig (Elt Ideal)) (x7 : (⟨S100000, .i32⟩ : BufTy).Contents (Elt Ideal)) (h7 : V (Proc.devRef .tc main_arg7) = x7) :
    (StableHlo.after hostOps0_8 V (Proc.devRef .tc main_v51) : (⟨S20000, .f32⟩ : BufTy).Contents (Elt Ideal)) = Cert.ReferenceIdeal.Read.val_main_v65 (F := Ideal) x7 := by
  dsimp only [hostOps0_8]
  after_results_simp
  rw [h7]
  rfl

set_option maxHeartbeats 1000000 in
theorem s8_cst16 (V : Valuation τ sig (Elt Ideal))   :
    (StableHlo.after hostOps0_8 V (Proc.devRef .tc main_cst_16) : (⟨S_, .f32⟩ : BufTy).Contents (Elt Ideal)) = Cert.ReferenceIdeal.Read.val_main_cst_16 (F := Ideal) := by
  dsimp only [hostOps0_8]
  after_results_simp
  rfl

set_option maxHeartbeats 1000000 in
theorem s8_v48 (V : Valuation τ sig (Elt Ideal))   :
    (StableHlo.after hostOps0_8 V (Proc.devRef .tc main_v48) : (⟨S100000, .f32⟩ : BufTy).Contents (Elt Ideal)) = Cert.ReferenceIdeal.Read.val_main_v62 (F := Ideal) := by
  dsimp only [hostOps0_8]
  after_results_simp
  rfl

theorem s9_v52 (V : Valuation τ sig (Elt Ideal)) (a : (⟨S_, .f32⟩ : BufTy).Contents (Elt Ideal)) (d : (⟨S20000, .f32⟩ : BufTy).Contents (Elt Ideal)) (ha : V (Proc.devRef .tc main_cst_16) = a) (hd : V (Proc.devRef .tc main_v51) = d) :
    (StableHlo.after hostOps0_9 V (Proc.devRef .tc main_v52) : (⟨S20000, .f32⟩ : BufTy).Contents (Elt Ideal)) = maximumf (F := Ideal) (φ := .f32) (broadcastInDim S20000 ![] bcast_S_S20000 (id a)) d := by
  dsimp only [hostOps0_9]
  after_results
  rw [ha, hd]
  rfl

theorem s10_v55 (V : Valuation τ sig (Elt Ideal)) (x8 : (⟨S100000, .i32⟩ : BufTy).Contents (Elt Ideal)) (h8 : V (Proc.devRef .tc main_arg8) = x8) (h48 : V (Proc.devRef .tc main_v48) = Cert.ReferenceIdeal.Read.val_main_v62 (F := Ideal)) :
    (StableHlo.after hostOps0_10 V (Proc.devRef .tc main_v55) : (⟨S100000, .f32⟩ : BufTy).Contents (Elt Ideal)) = Cert.ReferenceIdeal.Read.val_main_v69 (F := Ideal) x8 := by
  dsimp only [hostOps0_10]
  after_results
  rw [h8, h48]
  rfl

theorem s10_cst18 (V : Valuation τ sig (Elt Ideal))   :
    (StableHlo.after hostOps0_10 V (Proc.devRef .tc main_cst_18) : (⟨S_, .f32⟩ : BufTy).Contents (Elt Ideal)) = Cert.ReferenceIdeal.Read.val_main_cst_18 (F := Ideal) := by
  dsimp only [hostOps0_10]
  after_results
  rfl

theorem s11_v56 (V : Valuation τ sig (Elt Ideal)) (a : (⟨S_, .f32⟩ : BufTy).Contents (Elt Ideal)) (d : (⟨S100000, .f32⟩ : BufTy).Contents (Elt Ideal)) (ha : V (Proc.devRef .tc main_cst_18) = a) (hd : V (Proc.devRef .tc main_v55) = d) :
    (StableHlo.after hostOps0_11 V (Proc.devRef .tc main_v56) : (⟨S100000, .f32⟩ : BufTy).Contents (Elt Ideal)) = maximumf (F := Ideal) (φ := .f32) (broadcastInDim S100000 ![] bcast_S_S100000 (id a)) d := by
  dsimp only [hostOps0_11]
  after_results
  rw [ha, hd]
  rfl

set_option maxHeartbeats 1000000 in
theorem s12_v70 (V : Valuation τ sig (Elt Ideal)) (x2 : (⟨S20000x128, .f32⟩ : BufTy).Contents (Elt Ideal)) (x7 : (⟨S100000, .i32⟩ : BufTy).Contents (Elt Ideal)) (x8 : (⟨S100000, .i32⟩ : BufTy).Contents (Elt Ideal)) (h2 : V (Proc.devRef .tc main_arg2) = x2) (h7 : V (Proc.devRef .tc main_arg7) = x7) (h8 : V (Proc.devRef .tc main_arg8) = x8) (hd : V (Proc.devRef .tc main_v52) = Cert.ReferenceIdeal.Read.val_main_v66 (F := Ideal) x7) :
    (StableHlo.after hostOps0_12 V (Proc.devRef .tc main_v70) : (⟨S100000x128, .f32⟩ : BufTy).Contents (Elt Ideal)) = Cert.ReferenceIdeal.Read.val_main_v84 (F := Ideal) x2 x7 x8 := by
  dsimp only [hostOps0_12]
  after_results_simp
  rw [h2, h7, h8, hd]
  rfl

set_option maxHeartbeats 1000000 in
theorem s12_v71 (V : Valuation τ sig (Elt Ideal)) (x8 : (⟨S100000, .i32⟩ : BufTy).Contents (Elt Ideal)) (hd : V (Proc.devRef .tc main_v56) = Cert.ReferenceIdeal.Read.val_main_v70 (F := Ideal) x8) :
    (StableHlo.after hostOps0_12 V (Proc.devRef .tc main_v71) : (⟨S100000, .f32⟩ : BufTy).Contents (Elt Ideal)) = Cert.ReferenceIdeal.Read.val_main_v85 (F := Ideal) x8 := by
  dsimp only [hostOps0_12]
  after_results_simp
  rw [hd]
  rfl

set_option maxHeartbeats 1000000 in
theorem s12_v73 (V : Valuation τ sig (Elt Ideal)) (x : (⟨S128, .f32⟩ : BufTy).Contents (Elt Ideal)) (h : V (Proc.devRef .tc main_arg10) = x) :
    (StableHlo.after hostOps0_12 V (Proc.devRef .tc main_v73) : (⟨S1x128, .f32⟩ : BufTy).Contents (Elt Ideal)) = shapeCast S1x128 x shapeCasts_S128_S1x128 := by
  dsimp only [hostOps0_12]
  after_results_simp
  rw [h]
  rfl

set_option maxHeartbeats 1000000 in
theorem s12_v74 (V : Valuation τ sig (Elt Ideal)) (x : (⟨S64, .f32⟩ : BufTy).Contents (Elt Ideal)) (h : V (Proc.devRef .tc main_arg16) = x) :
    (StableHlo.after hostOps0_12 V (Proc.devRef .tc main_v74) : (⟨S1x64, .f32⟩ : BufTy).Contents (Elt Ideal)) = shapeCast S1x64 x shapeCasts_S64_S1x64 := by
  dsimp only [hostOps0_12]
  after_results_simp
  rw [h]
  rfl

set_option maxHeartbeats 1000000 in
theorem s12_v75 (V : Valuation τ sig (Elt Ideal)) (x : (⟨S50000, .f32⟩ : BufTy).Contents (Elt Ideal)) (h : V (Proc.devRef .tc main_v23) = x) :
    (StableHlo.after hostOps0_12 V (Proc.devRef .tc main_v75) : (⟨S50000x1, .f32⟩ : BufTy).Contents (Elt Ideal)) = shapeCast S50000x1 x shapeCasts_S50000_S50000x1 := by
  dsimp only [hostOps0_12]
  after_results_simp
  rw [h]
  rfl

theorem h1_v77 (V : Valuation τ sig (Elt Ideal)) (x : (⟨S128, .f32⟩ : BufTy).Contents (Elt Ideal)) (h : V (Proc.devRef .tc main_arg12) = x) :
    (StableHlo.after hostOps1 V (Proc.devRef .tc main_v77) : (⟨S1x128, .f32⟩ : BufTy).Contents (Elt Ideal)) = shapeCast S1x128 x shapeCasts_S128_S1x128 := by
  dsimp only [hostOps1]
  after_results
  rw [h]
  rfl

theorem h1_v78 (V : Valuation τ sig (Elt Ideal)) (x : (⟨S64, .f32⟩ : BufTy).Contents (Elt Ideal)) (h : V (Proc.devRef .tc main_arg18) = x) :
    (StableHlo.after hostOps1 V (Proc.devRef .tc main_v78) : (⟨S1x64, .f32⟩ : BufTy).Contents (Elt Ideal)) = shapeCast S1x64 x shapeCasts_S64_S1x64 := by
  dsimp only [hostOps1]
  after_results
  rw [h]
  rfl

theorem h1_v79 (V : Valuation τ sig (Elt Ideal)) (x : (⟨S20000, .f32⟩ : BufTy).Contents (Elt Ideal)) (h : V (Proc.devRef .tc main_v47) = x) :
    (StableHlo.after hostOps1 V (Proc.devRef .tc main_v79) : (⟨S20000x1, .f32⟩ : BufTy).Contents (Elt Ideal)) = shapeCast S20000x1 x shapeCasts_S20000_S20000x1 := by
  dsimp only [hostOps1]
  after_results
  rw [h]
  rfl

theorem h1_v80 (V : Valuation τ sig (Elt Ideal)) (x : (⟨S170000x64, .f32⟩ : BufTy).Contents (Elt Ideal)) (h : V (Proc.devRef .tc main_v76) = x) :
    (StableHlo.after hostOps1 V (Proc.devRef .tc main_v80) : (⟨S170000x64, .f32⟩ : BufTy).Contents (Elt Ideal)) = id x := by
  dsimp only [hostOps1]
  after_results
  rw [h]

theorem h2_v81 (V : Valuation τ sig (Elt Ideal)) (x : (⟨S128, .f32⟩ : BufTy).Contents (Elt Ideal)) (h : V (Proc.devRef .tc main_arg14) = x) :
    (StableHlo.after hostOps2 V (Proc.devRef .tc main_v81) : (⟨S1x128, .f32⟩ : BufTy).Contents (Elt Ideal)) = shapeCast S1x128 x shapeCasts_S128_S1x128 := by
  dsimp only [hostOps2]
  after_results
  rw [h]
  rfl

theorem h2_v82 (V : Valuation τ sig (Elt Ideal)) (x : (⟨S64, .f32⟩ : BufTy).Contents (Elt Ideal)) (h : V (Proc.devRef .tc main_arg20) = x) :
    (StableHlo.after hostOps2 V (Proc.devRef .tc main_v82) : (⟨S1x64, .f32⟩ : BufTy).Contents (Elt Ideal)) = shapeCast S1x64 x shapeCasts_S64_S1x64 := by
  dsimp only [hostOps2]
  after_results
  rw [h]
  rfl

theorem h2_v83 (V : Valuation τ sig (Elt Ideal)) (x : (⟨S100000, .f32⟩ : BufTy).Contents (Elt Ideal)) (h : V (Proc.devRef .tc main_v71) = x) :
    (StableHlo.after hostOps2 V (Proc.devRef .tc main_v83) : (⟨S100000x1, .f32⟩ : BufTy).Contents (Elt Ideal)) = shapeCast S100000x1 x shapeCasts_S100000_S100000x1 := by
  dsimp only [hostOps2]
  after_results
  rw [h]
  rfl

theorem h2_v84 (V : Valuation τ sig (Elt Ideal)) (x : (⟨S170000x64, .f32⟩ : BufTy).Contents (Elt Ideal)) (h : V (Proc.devRef .tc main_v80) = x) :
    (StableHlo.after hostOps2 V (Proc.devRef .tc main_v84) : (⟨S170000x64, .f32⟩ : BufTy).Contents (Elt Ideal)) = id x := by
  dsimp only [hostOps2]
  after_results
  rw [h]

/-! ## Chained from the launch memory -/

theorem at1_v3 (c : Dev nD) : (W1 m ρ c (Proc.devRef .tc main_v3) : (⟨S50000, .f32⟩ : BufTy).Contents (Elt Ideal)) = Cert.ReferenceIdeal.Read.val_main_v3 (F := Ideal) (m ((c : Thread nD τ).loc main_arg3)) := s0_v3 (W0 m ρ c) _ rfl

theorem at1_cst1 (c : Dev nD) : (W1 m ρ c (Proc.devRef .tc main_cst_1) : (⟨S_, .f32⟩ : BufTy).Contents (Elt Ideal)) = Cert.ReferenceIdeal.Read.val_main_cst_1 (F := Ideal) := s0_cst1 (W0 m ρ c)

theorem at1_v0 (c : Dev nD) : (W1 m ρ c (Proc.devRef .tc main_v0) : (⟨S1600000, .f32⟩ : BufTy).Contents (Elt Ideal)) = Cert.ReferenceIdeal.Read.val_main_v0 (F := Ideal) := s0_v0 (W0 m ρ c)

theorem at2_v4 (c : Dev nD) : (W2 m ρ c (Proc.devRef .tc main_v4) : (⟨S50000, .f32⟩ : BufTy).Contents (Elt Ideal)) = Cert.ReferenceIdeal.Read.val_main_v4 (F := Ideal) (m ((c : Thread nD τ).loc main_arg3)) := by
  show StableHlo.after hostOps0_1 (W1 m ρ c) (Proc.devRef .tc main_v4) = _
  rw [s1_v4 (W1 m ρ c) _ _ (at1_cst1 m ρ c) (at1_v3 m ρ c)]
  rfl

theorem at2_v0 (c : Dev nD) : (W2 m ρ c (Proc.devRef .tc main_v0) : (⟨S1600000, .f32⟩ : BufTy).Contents (Elt Ideal)) = Cert.ReferenceIdeal.Read.val_main_v0 (F := Ideal) := by
  walk
  exact s0_v0 _

theorem at3_v7 (c : Dev nD) : (W3 m ρ c (Proc.devRef .tc main_v7) : (⟨S50000, .f32⟩ : BufTy).Contents (Elt Ideal)) = Cert.ReferenceIdeal.Read.val_main_v7 (F := Ideal) (m ((c : Thread nD τ).loc main_arg4)) := s2_v7 (W2 m ρ c) _ (by walk; rfl : W2 m ρ c (Proc.devRef .tc main_arg4) = m ((c : Thread nD τ).loc main_arg4)) (at2_v0 m ρ c)

theorem at3_cst3 (c : Dev nD) : (W3 m ρ c (Proc.devRef .tc main_cst_3) : (⟨S_, .f32⟩ : BufTy).Contents (Elt Ideal)) = Cert.ReferenceIdeal.Read.val_main_cst_3 (F := Ideal) := s2_cst3 (W2 m ρ c)

theorem at4_v8 (c : Dev nD) : (W4 m ρ c (Proc.devRef .tc main_v8) : (⟨S50000, .f32⟩ : BufTy).Contents (Elt Ideal)) = Cert.ReferenceIdeal.Read.val_main_v8 (F := Ideal) (m ((c : Thread nD τ).loc main_arg4)) := by
  show StableHlo.after hostOps0_3 (W3 m ρ c) (Proc.devRef .tc main_v8) = _
  rw [s3_v8 (W3 m ρ c) _ _ (at3_cst3 m ρ c) (at3_v7 m ρ c)]
  rfl

theorem at4_v4 (c : Dev nD) : (W4 m ρ c (Proc.devRef .tc main_v4) : (⟨S50000, .f32⟩ : BufTy).Contents (Elt Ideal)) = Cert.ReferenceIdeal.Read.val_main_v4 (F := Ideal) (m ((c : Thread nD τ).loc main_arg3)) := by
  walk
  exact at2_v4 m ρ c

theorem at5_v22 (c : Dev nD) : (W5 m ρ c (Proc.devRef .tc main_v22) : (⟨S50000x128, .f32⟩ : BufTy).Contents (Elt Ideal)) = Cert.ReferenceIdeal.Read.val_main_v22 (F := Ideal) (m ((c : Thread nD τ).loc main_arg0)) (m ((c : Thread nD τ).loc main_arg3)) (m ((c : Thread nD τ).loc main_arg4)) :=
  s4_v22 (W4 m ρ c) _ _ _ (by walk; rfl : W4 m ρ c (Proc.devRef .tc main_arg0) = m ((c : Thread nD τ).loc main_arg0)) (by walk; rfl : W4 m ρ c (Proc.devRef .tc main_arg3) = m ((c : Thread nD τ).loc main_arg3)) (by walk; rfl : W4 m ρ c (Proc.devRef .tc main_arg4) = m ((c : Thread nD τ).loc main_arg4)) (at4_v4 m ρ c)

theorem at5_v23 (c : Dev nD) : (W5 m ρ c (Proc.devRef .tc main_v23) : (⟨S50000, .f32⟩ : BufTy).Contents (Elt Ideal)) = Cert.ReferenceIdeal.Read.val_main_v23 (F := Ideal) (m ((c : Thread nD τ).loc main_arg4)) := s4_v23 (W4 m ρ c) _ (at4_v8 m ρ c)

theorem at5_v27 (c : Dev nD) : (W5 m ρ c (Proc.devRef .tc main_v27) : (⟨S100000, .f32⟩ : BufTy).Contents (Elt Ideal)) = Cert.ReferenceIdeal.Read.val_main_v34 (F := Ideal) (m ((c : Thread nD τ).loc main_arg5)) := s4_v27 (W4 m ρ c) _ (by walk; rfl : W4 m ρ c (Proc.devRef .tc main_arg5) = m ((c : Thread nD τ).loc main_arg5))

theorem at5_cst8 (c : Dev nD) : (W5 m ρ c (Proc.devRef .tc main_cst_8) : (⟨S_, .f32⟩ : BufTy).Contents (Elt Ideal)) = Cert.ReferenceIdeal.Read.val_main_cst_8 (F := Ideal) := s4_cst8 (W4 m ρ c)

theorem at5_v24 (c : Dev nD) : (W5 m ρ c (Proc.devRef .tc main_v24) : (⟨S100000, .f32⟩ : BufTy).Contents (Elt Ideal)) = Cert.ReferenceIdeal.Read.val_main_v31 (F := Ideal) := s4_v24 (W4 m ρ c)

theorem at6_v28 (c : Dev nD) : (W6 m ρ c (Proc.devRef .tc main_v28) : (⟨S100000, .f32⟩ : BufTy).Contents (Elt Ideal)) = Cert.ReferenceIdeal.Read.val_main_v35 (F := Ideal) (m ((c : Thread nD τ).loc main_arg5)) := by
  show StableHlo.after hostOps0_5 (W5 m ρ c) (Proc.devRef .tc main_v28) = _
  rw [s5_v28 (W5 m ρ c) _ _ (at5_cst8 m ρ c) (at5_v27 m ρ c)]
  rfl

theorem at6_v24 (c : Dev nD) : (W6 m ρ c (Proc.devRef .tc main_v24) : (⟨S100000, .f32⟩ : BufTy).Contents (Elt Ideal)) = Cert.ReferenceIdeal.Read.val_main_v31 (F := Ideal) := by
  walk
  exact s4_v24 _

theorem at7_v31 (c : Dev nD) : (W7 m ρ c (Proc.devRef .tc main_v31) : (⟨S20000, .f32⟩ : BufTy).Contents (Elt Ideal)) = Cert.ReferenceIdeal.Read.val_main_v38 (F := Ideal) (m ((c : Thread nD τ).loc main_arg6)) := s6_v31 (W6 m ρ c) _ (by walk; rfl : W6 m ρ c (Proc.devRef .tc main_arg6) = m ((c : Thread nD τ).loc main_arg6)) (at6_v24 m ρ c)

theorem at7_cst10 (c : Dev nD) : (W7 m ρ c (Proc.devRef .tc main_cst_10) : (⟨S_, .f32⟩ : BufTy).Contents (Elt Ideal)) = Cert.ReferenceIdeal.Read.val_main_cst_10 (F := Ideal) := s6_cst10 (W6 m ρ c)

theorem at8_v32 (c : Dev nD) : (W8 m ρ c (Proc.devRef .tc main_v32) : (⟨S20000, .f32⟩ : BufTy).Contents (Elt Ideal)) = Cert.ReferenceIdeal.Read.val_main_v39 (F := Ideal) (m ((c : Thread nD τ).loc main_arg6)) := by
  show StableHlo.after hostOps0_7 (W7 m ρ c) (Proc.devRef .tc main_v32) = _
  rw [s7_v32 (W7 m ρ c) _ _ (at7_cst10 m ρ c) (at7_v31 m ρ c)]
  rfl

theorem at8_v28 (c : Dev nD) : (W8 m ρ c (Proc.devRef .tc main_v28) : (⟨S100000, .f32⟩ : BufTy).Contents (Elt Ideal)) = Cert.ReferenceIdeal.Read.val_main_v35 (F := Ideal) (m ((c : Thread nD τ).loc main_arg5)) := by
  walk
  exact at6_v28 m ρ c

theorem at9_v46 (c : Dev nD) : (W9 m ρ c (Proc.devRef .tc main_v46) : (⟨S20000x128, .f32⟩ : BufTy).Contents (Elt Ideal)) = Cert.ReferenceIdeal.Read.val_main_v53 (F := Ideal) (m ((c : Thread nD τ).loc main_arg1)) (m ((c : Thread nD τ).loc main_arg5)) (m ((c : Thread nD τ).loc main_arg6)) :=
  s8_v46 (W8 m ρ c) _ _ _ (by walk; rfl : W8 m ρ c (Proc.devRef .tc main_arg1) = m ((c : Thread nD τ).loc main_arg1)) (by walk; rfl : W8 m ρ c (Proc.devRef .tc main_arg5) = m ((c : Thread nD τ).loc main_arg5)) (by walk; rfl : W8 m ρ c (Proc.devRef .tc main_arg6) = m ((c : Thread nD τ).loc main_arg6)) (at8_v28 m ρ c)

theorem at9_v47 (c : Dev nD) : (W9 m ρ c (Proc.devRef .tc main_v47) : (⟨S20000, .f32⟩ : BufTy).Contents (Elt Ideal)) = Cert.ReferenceIdeal.Read.val_main_v54 (F := Ideal) (m ((c : Thread nD τ).loc main_arg6)) := s8_v47 (W8 m ρ c) _ (at8_v32 m ρ c)

theorem at9_v51 (c : Dev nD) : (W9 m ρ c (Proc.devRef .tc main_v51) : (⟨S20000, .f32⟩ : BufTy).Contents (Elt Ideal)) = Cert.ReferenceIdeal.Read.val_main_v65 (F := Ideal) (m ((c : Thread nD τ).loc main_arg7)) := s8_v51 (W8 m ρ c) _ (by walk; rfl : W8 m ρ c (Proc.devRef .tc main_arg7) = m ((c : Thread nD τ).loc main_arg7))

theorem at9_cst16 (c : Dev nD) : (W9 m ρ c (Proc.devRef .tc main_cst_16) : (⟨S_, .f32⟩ : BufTy).Contents (Elt Ideal)) = Cert.ReferenceIdeal.Read.val_main_cst_16 (F := Ideal) := s8_cst16 (W8 m ρ c)

theorem at9_v48 (c : Dev nD) : (W9 m ρ c (Proc.devRef .tc main_v48) : (⟨S100000, .f32⟩ : BufTy).Contents (Elt Ideal)) = Cert.ReferenceIdeal.Read.val_main_v62 (F := Ideal) := s8_v48 (W8 m ρ c)

theorem at10_v52 (c : Dev nD) : (W10 m ρ c (Proc.devRef .tc main_v52) : (⟨S20000, .f32⟩ : BufTy).Contents (Elt Ideal)) = Cert.ReferenceIdeal.Read.val_main_v66 (F := Ideal) (m ((c : Thread nD τ).loc main_arg7)) := by
  show StableHlo.after hostOps0_9 (W9 m ρ c) (Proc.devRef .tc main_v52) = _
  rw [s9_v52 (W9 m ρ c) _ _ (at9_cst16 m ρ c) (at9_v51 m ρ c)]
  rfl

theorem at10_v48 (c : Dev nD) : (W10 m ρ c (Proc.devRef .tc main_v48) : (⟨S100000, .f32⟩ : BufTy).Contents (Elt Ideal)) = Cert.ReferenceIdeal.Read.val_main_v62 (F := Ideal) := by
  walk
  exact s8_v48 _

theorem at11_v55 (c : Dev nD) : (W11 m ρ c (Proc.devRef .tc main_v55) : (⟨S100000, .f32⟩ : BufTy).Contents (Elt Ideal)) = Cert.ReferenceIdeal.Read.val_main_v69 (F := Ideal) (m ((c : Thread nD τ).loc main_arg8)) := s10_v55 (W10 m ρ c) _ (by walk; rfl : W10 m ρ c (Proc.devRef .tc main_arg8) = m ((c : Thread nD τ).loc main_arg8)) (at10_v48 m ρ c)

theorem at11_cst18 (c : Dev nD) : (W11 m ρ c (Proc.devRef .tc main_cst_18) : (⟨S_, .f32⟩ : BufTy).Contents (Elt Ideal)) = Cert.ReferenceIdeal.Read.val_main_cst_18 (F := Ideal) := s10_cst18 (W10 m ρ c)

theorem at12_v56 (c : Dev nD) : (W12 m ρ c (Proc.devRef .tc main_v56) : (⟨S100000, .f32⟩ : BufTy).Contents (Elt Ideal)) = Cert.ReferenceIdeal.Read.val_main_v70 (F := Ideal) (m ((c : Thread nD τ).loc main_arg8)) := by
  show StableHlo.after hostOps0_11 (W11 m ρ c) (Proc.devRef .tc main_v56) = _
  rw [s11_v56 (W11 m ρ c) _ _ (at11_cst18 m ρ c) (at11_v55 m ρ c)]
  rfl

theorem at12_v52 (c : Dev nD) : (W12 m ρ c (Proc.devRef .tc main_v52) : (⟨S20000, .f32⟩ : BufTy).Contents (Elt Ideal)) = Cert.ReferenceIdeal.Read.val_main_v66 (F := Ideal) (m ((c : Thread nD τ).loc main_arg7)) := by
  walk
  exact at10_v52 m ρ c

theorem at12_v23 (c : Dev nD) : (W12 m ρ c (Proc.devRef .tc main_v23) : (⟨S50000, .f32⟩ : BufTy).Contents (Elt Ideal)) = Cert.ReferenceIdeal.Read.val_main_v23 (F := Ideal) (m ((c : Thread nD τ).loc main_arg4)) := by
  walk
  exact at5_v23 m ρ c

theorem at13_v70 (c : Dev nD) : (W13 m ρ c (Proc.devRef .tc main_v70) : (⟨S100000x128, .f32⟩ : BufTy).Contents (Elt Ideal)) = Cert.ReferenceIdeal.Read.val_main_v84 (F := Ideal) (m ((c : Thread nD τ).loc main_arg2)) (m ((c : Thread nD τ).loc main_arg7)) (m ((c : Thread nD τ).loc main_arg8)) :=
  s12_v70 (W12 m ρ c) _ _ _ (by walk; rfl : W12 m ρ c (Proc.devRef .tc main_arg2) = m ((c : Thread nD τ).loc main_arg2)) (by walk; rfl : W12 m ρ c (Proc.devRef .tc main_arg7) = m ((c : Thread nD τ).loc main_arg7)) (by walk; rfl : W12 m ρ c (Proc.devRef .tc main_arg8) = m ((c : Thread nD τ).loc main_arg8)) (at12_v52 m ρ c)

theorem at13_v71 (c : Dev nD) : (W13 m ρ c (Proc.devRef .tc main_v71) : (⟨S100000, .f32⟩ : BufTy).Contents (Elt Ideal)) = Cert.ReferenceIdeal.Read.val_main_v85 (F := Ideal) (m ((c : Thread nD τ).loc main_arg8)) := s12_v71 (W12 m ρ c) _ (at12_v56 m ρ c)

theorem at13_v73 (c : Dev nD) : (W13 m ρ c (Proc.devRef .tc main_v73) : (⟨S1x128, .f32⟩ : BufTy).Contents (Elt Ideal)) = shapeCast S1x128 (m ((c : Thread nD τ).loc main_arg10)) shapeCasts_S128_S1x128 := s12_v73 (W12 m ρ c) _ (by walk; rfl : W12 m ρ c (Proc.devRef .tc main_arg10) = m ((c : Thread nD τ).loc main_arg10))

theorem at13_v74 (c : Dev nD) : (W13 m ρ c (Proc.devRef .tc main_v74) : (⟨S1x64, .f32⟩ : BufTy).Contents (Elt Ideal)) = shapeCast S1x64 (m ((c : Thread nD τ).loc main_arg16)) shapeCasts_S64_S1x64 := s12_v74 (W12 m ρ c) _ (by walk; rfl : W12 m ρ c (Proc.devRef .tc main_arg16) = m ((c : Thread nD τ).loc main_arg16))

theorem at13_v75 (c : Dev nD) : (W13 m ρ c (Proc.devRef .tc main_v75) : (⟨S50000x1, .f32⟩ : BufTy).Contents (Elt Ideal)) = shapeCast S50000x1 (Cert.ReferenceIdeal.Read.val_main_v23 (F := Ideal) (m ((c : Thread nD τ).loc main_arg4))) shapeCasts_S50000_S50000x1 := s12_v75 (W12 m ρ c) _ (at12_v23 m ρ c)

theorem at13_v22 (c : Dev nD) : (W13 m ρ c (Proc.devRef .tc main_v22) : (⟨S50000x128, .f32⟩ : BufTy).Contents (Elt Ideal)) = Cert.ReferenceIdeal.Read.val_main_v22 (F := Ideal) (m ((c : Thread nD τ).loc main_arg0)) (m ((c : Thread nD τ).loc main_arg3)) (m ((c : Thread nD τ).loc main_arg4)) := by
  walk
  exact at5_v22 m ρ c

theorem at13_arg9 (c : Dev nD) : (W13 m ρ c (Proc.devRef .tc main_arg9) : (⟨S128x128, .f32⟩ : BufTy).Contents (Elt Ideal)) = m ((c : Thread nD τ).loc main_arg9) := by
  walk
  rfl

theorem at13_arg15 (c : Dev nD) : (W13 m ρ c (Proc.devRef .tc main_arg15) : (⟨S128x64, .f32⟩ : BufTy).Contents (Elt Ideal)) = m ((c : Thread nD τ).loc main_arg15) := by
  walk
  rfl

theorem at14_v47 (c : Dev nD) : (W14 m ρ c (Proc.devRef .tc main_v47) : (⟨S20000, .f32⟩ : BufTy).Contents (Elt Ideal)) = Cert.ReferenceIdeal.Read.val_main_v54 (F := Ideal) (m ((c : Thread nD τ).loc main_arg6)) := by
  walk
  exact at9_v47 m ρ c

theorem at15_v46 (c : Dev nD) : (W15 m ρ c (Proc.devRef .tc main_v46) : (⟨S20000x128, .f32⟩ : BufTy).Contents (Elt Ideal)) = Cert.ReferenceIdeal.Read.val_main_v53 (F := Ideal) (m ((c : Thread nD τ).loc main_arg1)) (m ((c : Thread nD τ).loc main_arg5)) (m ((c : Thread nD τ).loc main_arg6)) := by
  walk
  exact at9_v46 m ρ c

theorem at15_v79 (c : Dev nD) : (W15 m ρ c (Proc.devRef .tc main_v79) : (⟨S20000x1, .f32⟩ : BufTy).Contents (Elt Ideal)) = shapeCast S20000x1 (Cert.ReferenceIdeal.Read.val_main_v54 (F := Ideal) (m ((c : Thread nD τ).loc main_arg6))) shapeCasts_S20000_S20000x1 := h1_v79 (W14 m ρ c) _ (at14_v47 m ρ c)

theorem at15_v77 (c : Dev nD) : (W15 m ρ c (Proc.devRef .tc main_v77) : (⟨S1x128, .f32⟩ : BufTy).Contents (Elt Ideal)) = shapeCast S1x128 (m ((c : Thread nD τ).loc main_arg12)) shapeCasts_S128_S1x128 := h1_v77 (W14 m ρ c) _ (by walk; rfl : W14 m ρ c (Proc.devRef .tc main_arg12) = m ((c : Thread nD τ).loc main_arg12))

theorem at15_v78 (c : Dev nD) : (W15 m ρ c (Proc.devRef .tc main_v78) : (⟨S1x64, .f32⟩ : BufTy).Contents (Elt Ideal)) = shapeCast S1x64 (m ((c : Thread nD τ).loc main_arg18)) shapeCasts_S64_S1x64 := h1_v78 (W14 m ρ c) _ (by walk; rfl : W14 m ρ c (Proc.devRef .tc main_arg18) = m ((c : Thread nD τ).loc main_arg18))

theorem at15_arg11 (c : Dev nD) : (W15 m ρ c (Proc.devRef .tc main_arg11) : (⟨S128x128, .f32⟩ : BufTy).Contents (Elt Ideal)) = m ((c : Thread nD τ).loc main_arg11) := by
  walk
  rfl

theorem at15_arg17 (c : Dev nD) : (W15 m ρ c (Proc.devRef .tc main_arg17) : (⟨S128x64, .f32⟩ : BufTy).Contents (Elt Ideal)) = m ((c : Thread nD τ).loc main_arg17) := by
  walk
  rfl

theorem at15_v80 (c : Dev nD) : (W15 m ρ c (Proc.devRef .tc main_v80) : (⟨S170000x64, .f32⟩ : BufTy).Contents (Elt Ideal)) = (dat0 (V13 m ρ) c).arrAt 7 cfg0.N :=
  (h1_v80 (W14 m ρ c) _ rfl).trans (W14_arr m ρ c 7)

theorem at16_v71 (c : Dev nD) : (W16 m ρ c (Proc.devRef .tc main_v71) : (⟨S100000, .f32⟩ : BufTy).Contents (Elt Ideal)) = Cert.ReferenceIdeal.Read.val_main_v85 (F := Ideal) (m ((c : Thread nD τ).loc main_arg8)) := by
  walk
  exact at13_v71 m ρ c

theorem at17_v70 (c : Dev nD) : (W17 m ρ c (Proc.devRef .tc main_v70) : (⟨S100000x128, .f32⟩ : BufTy).Contents (Elt Ideal)) = Cert.ReferenceIdeal.Read.val_main_v84 (F := Ideal) (m ((c : Thread nD τ).loc main_arg2)) (m ((c : Thread nD τ).loc main_arg7)) (m ((c : Thread nD τ).loc main_arg8)) := by
  walk
  exact at13_v70 m ρ c

theorem at17_v83 (c : Dev nD) : (W17 m ρ c (Proc.devRef .tc main_v83) : (⟨S100000x1, .f32⟩ : BufTy).Contents (Elt Ideal)) = shapeCast S100000x1 (Cert.ReferenceIdeal.Read.val_main_v85 (F := Ideal) (m ((c : Thread nD τ).loc main_arg8))) shapeCasts_S100000_S100000x1 := h2_v83 (W16 m ρ c) _ (at16_v71 m ρ c)

theorem at17_v81 (c : Dev nD) : (W17 m ρ c (Proc.devRef .tc main_v81) : (⟨S1x128, .f32⟩ : BufTy).Contents (Elt Ideal)) = shapeCast S1x128 (m ((c : Thread nD τ).loc main_arg14)) shapeCasts_S128_S1x128 := h2_v81 (W16 m ρ c) _ (by walk; rfl : W16 m ρ c (Proc.devRef .tc main_arg14) = m ((c : Thread nD τ).loc main_arg14))

theorem at17_v82 (c : Dev nD) : (W17 m ρ c (Proc.devRef .tc main_v82) : (⟨S1x64, .f32⟩ : BufTy).Contents (Elt Ideal)) = shapeCast S1x64 (m ((c : Thread nD τ).loc main_arg20)) shapeCasts_S64_S1x64 := h2_v82 (W16 m ρ c) _ (by walk; rfl : W16 m ρ c (Proc.devRef .tc main_arg20) = m ((c : Thread nD τ).loc main_arg20))

theorem at17_arg13 (c : Dev nD) : (W17 m ρ c (Proc.devRef .tc main_arg13) : (⟨S128x128, .f32⟩ : BufTy).Contents (Elt Ideal)) = m ((c : Thread nD τ).loc main_arg13) := by
  walk
  rfl

theorem at17_arg19 (c : Dev nD) : (W17 m ρ c (Proc.devRef .tc main_arg19) : (⟨S128x64, .f32⟩ : BufTy).Contents (Elt Ideal)) = m ((c : Thread nD τ).loc main_arg19) := by
  walk
  rfl

theorem at17_v84 (c : Dev nD) : (W17 m ρ c (Proc.devRef .tc main_v84) : (⟨S170000x64, .f32⟩ : BufTy).Contents (Elt Ideal)) = (dat1 (V15 m ρ) c).arrAt 7 cfg1.N :=
  (h2_v84 (W16 m ρ c) _ rfl).trans (W16_arr m ρ c 7)

end Cert.KernelIdeal.Entry
end
-- ==== Proof.RefHeads.lean ====
/-
  The reference's three heads at an entry.

  Each head of the reference scales the aggregated features of a destination row by the row's degree factor, applies
  the first weights and bias, the leaky rectifier, the second weights and bias. Read at row `p`, column `j`, through the
  generated stage-by-stage reading of the reference's run, that is the output layer over the scale-before hidden layer,
  with the aggregate and the degree factor left as the closed stages the reference computes them by.
-/
import proofs.«156169_j3143916060812_2_alg».proof.Proof.Gen.ReferenceIdeal.Read
import proofs.«156169_j3143916060812_2_alg».proof.Proof.HeadLaw
import Idealize.ShloMosaic.Lib.ValueIdx

noncomputable section

namespace Cert.ReferenceIdeal.Heads

open Idealize.ShloMosaic Idealize.ShloMosaic.ValueIdx Cert.ReferenceIdeal Cert.ReferenceIdeal.Read Cert.HeteroConv

/-! ## The svc head (50000 destination rows) -/

/-- Before the activation: the degree scale multiplies the aggregated features, then the first product and the bias. -/
theorem pre_svc (x0 : (⟨S50000x128, .f32⟩ : BufTy).Contents (Elt Ideal)) (x3 x4 : (⟨S1600000, .i32⟩ : BufTy).Contents (Elt Ideal)) (x9 : (⟨S128x128, .f32⟩ : BufTy).Contents (Elt Ideal)) (x10 : (⟨S128, .f32⟩ : BufTy).Contents (Elt Ideal)) (p : Fin 50000) (k : Fin 128) :
    val_main_v30 (F := Ideal) x0 x3 x4 x9 x10 (ix2 p k) = hiddenBefore (fun l => val_main_v22 (F := Ideal) x0 x3 x4 (ix2 p l)) (val_main_v23 (F := Ideal) x4 (ix1 p)) (fun l k => x9 (ix2 l k)) (fun k => x10 (ix1 k)) k := by
  have el : ∀ l : Fin 128, lidx_main_v27 (ix2 p k) l = ix2 p l := fun l => funext fun a => by match a with | ⟨0, _⟩ => rfl | ⟨1, _⟩ => rfl
  have er : ∀ l : Fin 128, ridx_main_v27 (ix2 p k) l = ix2 l k := fun l => funext fun a => by match a with | ⟨0, _⟩ => rfl | ⟨1, _⟩ => rfl
  have es : ∀ l : Fin 128, idx_main_v24 (idx_main_v25 (ix2 p l)) = ix1 p := fun l => funext fun a => by match a with | ⟨0, _⟩ => rfl
  have eb : idx_main_v28 (idx_main_v29 (ix2 p k)) = ix1 k := funext fun a => by match a with | ⟨0, _⟩ => rfl
  rw [val_main_v30_apply, val_main_v27_apply, val_main_v29_apply, val_main_v28_apply, eb]
  unfold hiddenBefore
  rw [Ideal.addf_def]
  refine congrArg₂ (· + ·) (Finset.sum_congr rfl fun l _ => ?_) rfl
  rw [el, er, val_main_v26_apply, val_main_v25_apply, val_main_v24_apply, es, Ideal.mulf_def]

/-- After the activation. -/
theorem act_svc (x0 : (⟨S50000x128, .f32⟩ : BufTy).Contents (Elt Ideal)) (x3 x4 : (⟨S1600000, .i32⟩ : BufTy).Contents (Elt Ideal)) (x9 : (⟨S128x128, .f32⟩ : BufTy).Contents (Elt Ideal)) (x10 : (⟨S128, .f32⟩ : BufTy).Contents (Elt Ideal)) (p : Fin 50000) (k : Fin 128) :
    val_main_v97 (F := Ideal) x0 x3 x4 x9 x10 (ix2 p k) = leaky (hiddenBefore (fun l => val_main_v22 (F := Ideal) x0 x3 x4 (ix2 p l)) (val_main_v23 (F := Ideal) x4 (ix1 p)) (fun l k => x9 (ix2 l k)) (fun k => x10 (ix1 k)) k) := by
  rw [val_main_v97_apply, val_main_v94_apply, val_main_v96_apply, val_main_v93_apply, val_main_v95_apply,
    val_main_cst_22_apply, val_main_cst_23_apply, pre_svc]
  rfl

/-- THE HEAD AT AN ENTRY. -/
theorem head_svc (x0 : (⟨S50000x128, .f32⟩ : BufTy).Contents (Elt Ideal)) (x3 x4 : (⟨S1600000, .i32⟩ : BufTy).Contents (Elt Ideal)) (x9 : (⟨S128x128, .f32⟩ : BufTy).Contents (Elt Ideal)) (x10 : (⟨S128, .f32⟩ : BufTy).Contents (Elt Ideal)) (x15 : (⟨S128x64, .f32⟩ : BufTy).Contents (Elt Ideal)) (x16 : (⟨S64, .f32⟩ : BufTy).Contents (Elt Ideal)) (p : Fin 50000) (j : Fin 64) :
    val_main_v101 (F := Ideal) x0 x3 x4 x9 x10 x15 x16 (ix2 p j)
      = outOf (hiddenBefore (fun l => val_main_v22 (F := Ideal) x0 x3 x4 (ix2 p l)) (val_main_v23 (F := Ideal) x4 (ix1 p)) (fun l k => x9 (ix2 l k)) (fun k => x10 (ix1 k))) (fun k j => x15 (ix2 k j)) (fun j => x16 (ix1 j)) j := by
  have el : ∀ k : Fin 128, lidx_main_v98 (ix2 p j) k = ix2 p k := fun k => funext fun a => by match a with | ⟨0, _⟩ => rfl | ⟨1, _⟩ => rfl
  have er : ∀ k : Fin 128, ridx_main_v98 (ix2 p j) k = ix2 k j := fun k => funext fun a => by match a with | ⟨0, _⟩ => rfl | ⟨1, _⟩ => rfl
  have eb : idx_main_v99 (idx_main_v100 (ix2 p j)) = ix1 j := funext fun a => by match a with | ⟨0, _⟩ => rfl
  rw [val_main_v101_apply, val_main_v98_apply, val_main_v100_apply, val_main_v99_apply, eb]
  unfold outOf
  rw [Ideal.addf_def]
  refine congrArg₂ (· + ·) (Finset.sum_congr rfl fun k _ => ?_) rfl
  rw [el, er, act_svc]

/-! ## The node head (20000 destination rows) -/

/-- Before the activation: the degree scale multiplies the aggregated features, then the first product and the bias. -/
theorem pre_node (x1 : (⟨S100000x128, .f32⟩ : BufTy).Contents (Elt Ideal)) (x5 x6 : (⟨S100000, .i32⟩ : BufTy).Contents (Elt Ideal)) (x11 : (⟨S128x128, .f32⟩ : BufTy).Contents (Elt Ideal)) (x12 : (⟨S128, .f32⟩ : BufTy).Contents (Elt Ideal)) (p : Fin 20000) (k : Fin 128) :
    val_main_v61 (F := Ideal) x1 x5 x6 x11 x12 (ix2 p k) = hiddenBefore (fun l => val_main_v53 (F := Ideal) x1 x5 x6 (ix2 p l)) (val_main_v54 (F := Ideal) x6 (ix1 p)) (fun l k => x11 (ix2 l k)) (fun k => x12 (ix1 k)) k := by
  have el : ∀ l : Fin 128, lidx_main_v58 (ix2 p k) l = ix2 p l := fun l => funext fun a => by match a with | ⟨0, _⟩ => rfl | ⟨1, _⟩ => rfl
  have er : ∀ l : Fin 128, ridx_main_v58 (ix2 p k) l = ix2 l k := fun l => funext fun a => by match a with | ⟨0, _⟩ => rfl | ⟨1, _⟩ => rfl
  have es : ∀ l : Fin 128, idx_main_v55 (idx_main_v56 (ix2 p l)) = ix1 p := fun l => funext fun a => by match a with | ⟨0, _⟩ => rfl
  have eb : idx_main_v59 (idx_main_v60 (ix2 p k)) = ix1 k := funext fun a => by match a with | ⟨0, _⟩ => rfl
  rw [val_main_v61_apply, val_main_v58_apply, val_main_v60_apply, val_main_v59_apply, eb]
  unfold hiddenBefore
  rw [Ideal.addf_def]
  refine congrArg₂ (· + ·) (Finset.sum_congr rfl fun l _ => ?_) rfl
  rw [el, er, val_main_v57_apply, val_main_v56_apply, val_main_v55_apply, es, Ideal.mulf_def]

/-- After the activation. -/
theorem act_node (x1 : (⟨S100000x128, .f32⟩ : BufTy).Contents (Elt Ideal)) (x5 x6 : (⟨S100000, .i32⟩ : BufTy).Contents (Elt Ideal)) (x11 : (⟨S128x128, .f32⟩ : BufTy).Contents (Elt Ideal)) (x12 : (⟨S128, .f32⟩ : BufTy).Contents (Elt Ideal)) (p : Fin 20000) (k : Fin 128) :
    val_main_v106 (F := Ideal) x1 x5 x6 x11 x12 (ix2 p k) = leaky (hiddenBefore (fun l => val_main_v53 (F := Ideal) x1 x5 x6 (ix2 p l)) (val_main_v54 (F := Ideal) x6 (ix1 p)) (fun l k => x11 (ix2 l k)) (fun k => x12 (ix1 k)) k) := by
  rw [val_main_v106_apply, val_main_v103_apply, val_main_v105_apply, val_main_v102_apply, val_main_v104_apply,
    val_main_cst_24_apply, val_main_cst_25_apply, pre_node]
  rfl

/-- THE HEAD AT AN ENTRY. -/
theorem head_node (x1 : (⟨S100000x128, .f32⟩ : BufTy).Contents (Elt Ideal)) (x5 x6 : (⟨S100000, .i32⟩ : BufTy).Contents (Elt Ideal)) (x11 : (⟨S128x128, .f32⟩ : BufTy).Contents (Elt Ideal)) (x12 : (⟨S128, .f32⟩ : BufTy).Contents (Elt Ideal)) (x17 : (⟨S128x64, .f32⟩ : BufTy).Contents (Elt Ideal)) (x18 : (⟨S64, .f32⟩ : BufTy).Contents (Elt Ideal)) (p : Fin 20000) (j : Fin 64) :
    val_main_v110 (F := Ideal) x1 x5 x6 x11 x12 x17 x18 (ix2 p j)
      = outOf (hiddenBefore (fun l => val_main_v53 (F := Ideal) x1 x5 x6 (ix2 p l)) (val_main_v54 (F := Ideal) x6 (ix1 p)) (fun l k => x11 (ix2 l k)) (fun k => x12 (ix1 k))) (fun k j => x17 (ix2 k j)) (fun j => x18 (ix1 j)) j := by
  have el : ∀ k : Fin 128, lidx_main_v107 (ix2 p j) k = ix2 p k := fun k => funext fun a => by match a with | ⟨0, _⟩ => rfl | ⟨1, _⟩ => rfl
  have er : ∀ k : Fin 128, ridx_main_v107 (ix2 p j) k = ix2 k j := fun k => funext fun a => by match a with | ⟨0, _⟩ => rfl | ⟨1, _⟩ => rfl
  have eb : idx_main_v108 (idx_main_v109 (ix2 p j)) = ix1 j := funext fun a => by match a with | ⟨0, _⟩ => rfl
  rw [val_main_v110_apply, val_main_v107_apply, val_main_v109_apply, val_main_v108_apply, eb]
  unfold outOf
  rw [Ideal.addf_def]
  refine congrArg₂ (· + ·) (Finset.sum_congr rfl fun k _ => ?_) rfl
  rw [el, er, act_node]

/-! ## The pod head (100000 destination rows) -/

/-- Before the activation: the degree scale multiplies the aggregated features, then the first product and the bias. -/
theorem pre_pod (x2 : (⟨S20000x128, .f32⟩ : BufTy).Contents (Elt Ideal)) (x7 x8 : (⟨S100000, .i32⟩ : BufTy).Contents (Elt Ideal)) (x13 : (⟨S128x128, .f32⟩ : BufTy).Contents (Elt Ideal)) (x14 : (⟨S128, .f32⟩ : BufTy).Contents (Elt Ideal)) (p : Fin 100000) (k : Fin 128) :
    val_main_v92 (F := Ideal) x2 x7 x8 x13 x14 (ix2 p k) = hiddenBefore (fun l => val_main_v84 (F := Ideal) x2 x7 x8 (ix2 p l)) (val_main_v85 (F := Ideal) x8 (ix1 p)) (fun l k => x13 (ix2 l k)) (fun k => x14 (ix1 k)) k := by
  have el : ∀ l : Fin 128, lidx_main_v89 (ix2 p k) l = ix2 p l := fun l => funext fun a => by match a with | ⟨0, _⟩ => rfl | ⟨1, _⟩ => rfl
  have er : ∀ l : Fin 128, ridx_main_v89 (ix2 p k) l = ix2 l k := fun l => funext fun a => by match a with | ⟨0, _⟩ => rfl | ⟨1, _⟩ => rfl
  have es : ∀ l : Fin 128, idx_main_v86 (idx_main_v87 (ix2 p l)) = ix1 p := fun l => funext fun a => by match a with | ⟨0, _⟩ => rfl
  have eb : idx_main_v90 (idx_main_v91 (ix2 p k)) = ix1 k := funext fun a => by match a with | ⟨0, _⟩ => rfl
  rw [val_main_v92_apply, val_main_v89_apply, val_main_v91_apply, val_main_v90_apply, eb]
  unfold hiddenBefore
  rw [Ideal.addf_def]
  refine congrArg₂ (· + ·) (Finset.sum_congr rfl fun l _ => ?_) rfl
  rw [el, er, val_main_v88_apply, val_main_v87_apply, val_main_v86_apply, es, Ideal.mulf_def]

/-- After the activation. -/
theorem act_pod (x2 : (⟨S20000x128, .f32⟩ : BufTy).Contents (Elt Ideal)) (x7 x8 : (⟨S100000, .i32⟩ : BufTy).Contents (Elt Ideal)) (x13 : (⟨S128x128, .f32⟩ : BufTy).Contents (Elt Ideal)) (x14 : (⟨S128, .f32⟩ : BufTy).Contents (Elt Ideal)) (p : Fin 100000) (k : Fin 128) :
    val_main_v115 (F := Ideal) x2 x7 x8 x13 x14 (ix2 p k) = leaky (hiddenBefore (fun l => val_main_v84 (F := Ideal) x2 x7 x8 (ix2 p l)) (val_main_v85 (F := Ideal) x8 (ix1 p)) (fun l k => x13 (ix2 l k)) (fun k => x14 (ix1 k)) k) := by
  rw [val_main_v115_apply, val_main_v112_apply, val_main_v114_apply, val_main_v111_apply, val_main_v113_apply,
    val_main_cst_26_apply, val_main_cst_27_apply, pre_pod]
  rfl

/-- THE HEAD AT AN ENTRY. -/
theorem head_pod (x2 : (⟨S20000x128, .f32⟩ : BufTy).Contents (Elt Ideal)) (x7 x8 : (⟨S100000, .i32⟩ : BufTy).Contents (Elt Ideal)) (x13 : (⟨S128x128, .f32⟩ : BufTy).Contents (Elt Ideal)) (x14 : (⟨S128, .f32⟩ : BufTy).Contents (Elt Ideal)) (x19 : (⟨S128x64, .f32⟩ : BufTy).Contents (Elt Ideal)) (x20 : (⟨S64, .f32⟩ : BufTy).Contents (Elt Ideal)) (p : Fin 100000) (j : Fin 64) :
    val_main_v119 (F := Ideal) x2 x7 x8 x13 x14 x19 x20 (ix2 p j)
      = outOf (hiddenBefore (fun l => val_main_v84 (F := Ideal) x2 x7 x8 (ix2 p l)) (val_main_v85 (F := Ideal) x8 (ix1 p)) (fun l k => x13 (ix2 l k)) (fun k => x14 (ix1 k))) (fun k j => x19 (ix2 k j)) (fun j => x20 (ix1 j)) j := by
  have el : ∀ k : Fin 128, lidx_main_v116 (ix2 p j) k = ix2 p k := fun k => funext fun a => by match a with | ⟨0, _⟩ => rfl | ⟨1, _⟩ => rfl
  have er : ∀ k : Fin 128, ridx_main_v116 (ix2 p j) k = ix2 k j := fun k => funext fun a => by match a with | ⟨0, _⟩ => rfl | ⟨1, _⟩ => rfl
  have eb : idx_main_v117 (idx_main_v118 (ix2 p j)) = ix1 j := funext fun a => by match a with | ⟨0, _⟩ => rfl
  rw [val_main_v119_apply, val_main_v116_apply, val_main_v118_apply, val_main_v117_apply, eb]
  unfold outOf
  rw [Ideal.addf_def]
  refine congrArg₂ (· + ·) (Finset.sum_congr rfl fun k _ => ?_) rfl
  rw [el, er, act_pod]

end Cert.ReferenceIdeal.Heads

end
-- ==== Proof.RefResult.lean ====
/-
  The reference's result, row range by row range.

  The reference joins its three heads along the rows: the first 50000 rows are the first head's, the next 20000 the
  second's, the last 100000 the third's. On each range the result at a row and column is that head at the row minus the
  range's start; and since each head's degree factor is a nonnegative real, the head may be written with the factor
  applied after the first product, the arrangement the kernel computes.
-/
import proofs.«156169_j3143916060812_2_alg».proof.Proof.RefHeads
import Idealize.ShloMosaic.Lib.Pipeline.Value

noncomputable section

namespace Cert.ReferenceIdeal.Result

open Idealize.ShloMosaic Idealize.ShloMosaic.ValueIdx Cert.ReferenceIdeal Cert.ReferenceIdeal.Read Cert.ReferenceIdeal.Heads Cert.HeteroConv

/-! ## The svc head -/

/-- The head's degree factor is the reciprocal square root of a degree clipped below at one: a nonnegative real. -/
theorem scale_svc (x4 : (⟨S1600000, .i32⟩ : BufTy).Contents (Elt Ideal)) (p : Fin 50000) :
    0 ≤ val_main_v23 (F := Ideal) x4 (ix1 p) ∧ val_main_v23 (F := Ideal) x4 (ix1 p) ≠ ⊤ := by
  rw [val_main_v23_apply, val_main_v8_apply, val_main_call1_v1_apply, val_main_call1_v0_apply, val_main_cst_3_apply]
  simp only [Ideal.hostUnary_rsqrt_def, Ideal.maximumf_def, Ideal.ofBits_def]
  exact rsqrt_clip_nonneg_ne_top _

/-- The head with the degree factor moved AFTER the first product (the law of the two hidden layers). -/
theorem head_svc_after (x0 : (⟨S50000x128, .f32⟩ : BufTy).Contents (Elt Ideal)) (x3 x4 : (⟨S1600000, .i32⟩ : BufTy).Contents (Elt Ideal)) (x9 : (⟨S128x128, .f32⟩ : BufTy).Contents (Elt Ideal)) (x10 : (⟨S128, .f32⟩ : BufTy).Contents (Elt Ideal)) (x15 : (⟨S128x64, .f32⟩ : BufTy).Contents (Elt Ideal)) (x16 : (⟨S64, .f32⟩ : BufTy).Contents (Elt Ideal)) (p : Fin 50000) (j : Fin 64) :
    val_main_v101 (F := Ideal) x0 x3 x4 x9 x10 x15 x16 (ix2 p j) = outOf (hiddenAfter (fun l => val_main_v22 (F := Ideal) x0 x3 x4 (ix2 p l)) (val_main_v23 (F := Ideal) x4 (ix1 p)) (fun l k => x9 (ix2 l k)) (fun k => x10 (ix1 k))) (fun k j => x15 (ix2 k j)) (fun j => x16 (ix1 j)) j := by
  rw [head_svc]
  unfold outOf
  refine congrArg₂ (· + ·) (Finset.sum_congr rfl fun k _ => ?_) rfl
  rw [hiddenBefore_eq_hiddenAfter _ (scale_svc x4 p).1 (scale_svc x4 p).2]

/-- The reference's result on the svc rows (from row 0): piece 0 of the concatenation. -/
theorem result_svc (x0 : (⟨S50000x128, .f32⟩ : BufTy).Contents (Elt Ideal)) (x1 : (⟨S100000x128, .f32⟩ : BufTy).Contents (Elt Ideal)) (x2 : (⟨S20000x128, .f32⟩ : BufTy).Contents (Elt Ideal)) (x3 : (⟨S1600000, .i32⟩ : BufTy).Contents (Elt Ideal)) (x4 : (⟨S1600000, .i32⟩ : BufTy).Contents (Elt Ideal)) (x5 : (⟨S100000, .i32⟩ : BufTy).Contents (Elt Ideal)) (x6 : (⟨S100000, .i32⟩ : BufTy).Contents (Elt Ideal)) (x7 : (⟨S100000, .i32⟩ : BufTy).Contents (Elt Ideal)) (x8 : (⟨S100000, .i32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x64, .f32⟩ : BufTy).Contents (Elt Ideal)) (x16 : (⟨S64, .f32⟩ : BufTy).Contents (Elt Ideal)) (x17 : (⟨S128x64, .f32⟩ : BufTy).Contents (Elt Ideal)) (x18 : (⟨S64, .f32⟩ : BufTy).Contents (Elt Ideal)) (x19 : (⟨S128x64, .f32⟩ : BufTy).Contents (Elt Ideal)) (x20 : (⟨S64, .f32⟩ : BufTy).Contents (Elt Ideal)) (i : S170000x64.Idx) (p : Fin 50000) (j : Fin 64)
    (h0 : 0 + p.val = (i 0).val) (h1 : (i 1).val = j.val) :
    val_main_v120 (F := Ideal) x0 x1 x2 x3 x4 x5 x6 x7 x8 x9 x10 x11 x12 x13 x14 x15 x16 x17 x18 x19 x20 i = outOf (hiddenAfter (fun l => val_main_v22 (F := Ideal) x0 x3 x4 (ix2 p l)) (val_main_v23 (F := Ideal) x4 (ix1 p)) (fun l k => x9 (ix2 l k)) (fun k => x10 (ix1 k))) (fun k j => x15 (ix2 k j)) (fun j => x16 (ix1 j)) j := by
  unfold val_main_v120
  refine (concatenate_apply_piece (0 : Fin S170000x64.rank) _ _ i 0 (by simp) S50000x64
    (val_main_v101 (F := Ideal) x0 x3 x4 x9 x10 x15 x16) rfl rfl 0 rfl (ix2 p j) (fun b hb => ?_) h0).trans
    (head_svc_after x0 x3 x4 x9 x10 x15 x16 p j)
  match b with
  | ⟨0, _⟩ => exact absurd rfl hb
  | ⟨1, _⟩ => exact h1.symm

/-! ## The node head -/

/-- The head's degree factor is the reciprocal square root of a degree clipped below at one: a nonnegative real. -/
theorem scale_node (x6 : (⟨S100000, .i32⟩ : BufTy).Contents (Elt Ideal)) (p : Fin 20000) :
    0 ≤ val_main_v54 (F := Ideal) x6 (ix1 p) ∧ val_main_v54 (F := Ideal) x6 (ix1 p) ≠ ⊤ := by
  rw [val_main_v54_apply, val_main_v39_apply, val_main_call3_v1_apply, val_main_call3_v0_apply, val_main_cst_10_apply]
  simp only [Ideal.hostUnary_rsqrt_def, Ideal.maximumf_def, Ideal.ofBits_def]
  exact rsqrt_clip_nonneg_ne_top _

/-- The head with the degree factor moved AFTER the first product (the law of the two hidden layers). -/
theorem head_node_after (x1 : (⟨S100000x128, .f32⟩ : BufTy).Contents (Elt Ideal)) (x5 x6 : (⟨S100000, .i32⟩ : BufTy).Contents (Elt Ideal)) (x11 : (⟨S128x128, .f32⟩ : BufTy).Contents (Elt Ideal)) (x12 : (⟨S128, .f32⟩ : BufTy).Contents (Elt Ideal)) (x17 : (⟨S128x64, .f32⟩ : BufTy).Contents (Elt Ideal)) (x18 : (⟨S64, .f32⟩ : BufTy).Contents (Elt Ideal)) (p : Fin 20000) (j : Fin 64) :
    val_main_v110 (F := Ideal) x1 x5 x6 x11 x12 x17 x18 (ix2 p j) = outOf (hiddenAfter (fun l => val_main_v53 (F := Ideal) x1 x5 x6 (ix2 p l)) (val_main_v54 (F := Ideal) x6 (ix1 p)) (fun l k => x11 (ix2 l k)) (fun k => x12 (ix1 k))) (fun k j => x17 (ix2 k j)) (fun j => x18 (ix1 j)) j := by
  rw [head_node]
  unfold outOf
  refine congrArg₂ (· + ·) (Finset.sum_congr rfl fun k _ => ?_) rfl
  rw [hiddenBefore_eq_hiddenAfter _ (scale_node x6 p).1 (scale_node x6 p).2]

/-- The reference's result on the node rows (from row 50000): piece 1 of the concatenation. -/
theorem result_node (x0 : (⟨S50000x128, .f32⟩ : BufTy).Contents (Elt Ideal)) (x1 : (⟨S100000x128, .f32⟩ : BufTy).Contents (Elt Ideal)) (x2 : (⟨S20000x128, .f32⟩ : BufTy).Contents (Elt Ideal)) (x3 : (⟨S1600000, .i32⟩ : BufTy).Contents (Elt Ideal)) (x4 : (⟨S1600000, .i32⟩ : BufTy).Contents (Elt Ideal)) (x5 : (⟨S100000, .i32⟩ : BufTy).Contents (Elt Ideal)) (x6 : (⟨S100000, .i32⟩ : BufTy).Contents (Elt Ideal)) (x7 : (⟨S100000, .i32⟩ : BufTy).Contents (Elt Ideal)) (x8 : (⟨S100000, .i32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x64, .f32⟩ : BufTy).Contents (Elt Ideal)) (x16 : (⟨S64, .f32⟩ : BufTy).Contents (Elt Ideal)) (x17 : (⟨S128x64, .f32⟩ : BufTy).Contents (Elt Ideal)) (x18 : (⟨S64, .f32⟩ : BufTy).Contents (Elt Ideal)) (x19 : (⟨S128x64, .f32⟩ : BufTy).Contents (Elt Ideal)) (x20 : (⟨S64, .f32⟩ : BufTy).Contents (Elt Ideal)) (i : S170000x64.Idx) (p : Fin 20000) (j : Fin 64)
    (h0 : 50000 + p.val = (i 0).val) (h1 : (i 1).val = j.val) :
    val_main_v120 (F := Ideal) x0 x1 x2 x3 x4 x5 x6 x7 x8 x9 x10 x11 x12 x13 x14 x15 x16 x17 x18 x19 x20 i = outOf (hiddenAfter (fun l => val_main_v53 (F := Ideal) x1 x5 x6 (ix2 p l)) (val_main_v54 (F := Ideal) x6 (ix1 p)) (fun l k => x11 (ix2 l k)) (fun k => x12 (ix1 k))) (fun k j => x17 (ix2 k j)) (fun j => x18 (ix1 j)) j := by
  unfold val_main_v120
  refine (concatenate_apply_piece (0 : Fin S170000x64.rank) _ _ i 1 (by simp) S20000x64
    (val_main_v110 (F := Ideal) x1 x5 x6 x11 x12 x17 x18) rfl rfl 50000 rfl (ix2 p j) (fun b hb => ?_) h0).trans
    (head_node_after x1 x5 x6 x11 x12 x17 x18 p j)
  match b with
  | ⟨0, _⟩ => exact absurd rfl hb
  | ⟨1, _⟩ => exact h1.symm

/-! ## The pod head -/

/-- The head's degree factor is the reciprocal square root of a degree clipped below at one: a nonnegative real. -/
theorem scale_pod (x8 : (⟨S100000, .i32⟩ : BufTy).Contents (Elt Ideal)) (p : Fin 100000) :
    0 ≤ val_main_v85 (F := Ideal) x8 (ix1 p) ∧ val_main_v85 (F := Ideal) x8 (ix1 p) ≠ ⊤ := by
  rw [val_main_v85_apply, val_main_v70_apply, val_main_call5_v1_apply, val_main_call5_v0_apply, val_main_cst_18_apply]
  simp only [Ideal.hostUnary_rsqrt_def, Ideal.maximumf_def, Ideal.ofBits_def]
  exact rsqrt_clip_nonneg_ne_top _

/-- The head with the degree factor moved AFTER the first product (the law of the two hidden layers). -/
theorem head_pod_after (x2 : (⟨S20000x128, .f32⟩ : BufTy).Contents (Elt Ideal)) (x7 x8 : (⟨S100000, .i32⟩ : BufTy).Contents (Elt Ideal)) (x13 : (⟨S128x128, .f32⟩ : BufTy).Contents (Elt Ideal)) (x14 : (⟨S128, .f32⟩ : BufTy).Contents (Elt Ideal)) (x19 : (⟨S128x64, .f32⟩ : BufTy).Contents (Elt Ideal)) (x20 : (⟨S64, .f32⟩ : BufTy).Contents (Elt Ideal)) (p : Fin 100000) (j : Fin 64) :
    val_main_v119 (F := Ideal) x2 x7 x8 x13 x14 x19 x20 (ix2 p j) = outOf (hiddenAfter (fun l => val_main_v84 (F := Ideal) x2 x7 x8 (ix2 p l)) (val_main_v85 (F := Ideal) x8 (ix1 p)) (fun l k => x13 (ix2 l k)) (fun k => x14 (ix1 k))) (fun k j => x19 (ix2 k j)) (fun j => x20 (ix1 j)) j := by
  rw [head_pod]
  unfold outOf
  refine congrArg₂ (· + ·) (Finset.sum_congr rfl fun k _ => ?_) rfl
  rw [hiddenBefore_eq_hiddenAfter _ (scale_pod x8 p).1 (scale_pod x8 p).2]

/-- The reference's result on the pod rows (from row 70000): piece 2 of the concatenation. -/
theorem result_pod (x0 : (⟨S50000x128, .f32⟩ : BufTy).Contents (Elt Ideal)) (x1 : (⟨S100000x128, .f32⟩ : BufTy).Contents (Elt Ideal)) (x2 : (⟨S20000x128, .f32⟩ : BufTy).Contents (Elt Ideal)) (x3 : (⟨S1600000, .i32⟩ : BufTy).Contents (Elt Ideal)) (x4 : (⟨S1600000, .i32⟩ : BufTy).Contents (Elt Ideal)) (x5 : (⟨S100000, .i32⟩ : BufTy).Contents (Elt Ideal)) (x6 : (⟨S100000, .i32⟩ : BufTy).Contents (Elt Ideal)) (x7 : (⟨S100000, .i32⟩ : BufTy).Contents (Elt Ideal)) (x8 : (⟨S100000, .i32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x64, .f32⟩ : BufTy).Contents (Elt Ideal)) (x16 : (⟨S64, .f32⟩ : BufTy).Contents (Elt Ideal)) (x17 : (⟨S128x64, .f32⟩ : BufTy).Contents (Elt Ideal)) (x18 : (⟨S64, .f32⟩ : BufTy).Contents (Elt Ideal)) (x19 : (⟨S128x64, .f32⟩ : BufTy).Contents (Elt Ideal)) (x20 : (⟨S64, .f32⟩ : BufTy).Contents (Elt Ideal)) (i : S170000x64.Idx) (p : Fin 100000) (j : Fin 64)
    (h0 : 70000 + p.val = (i 0).val) (h1 : (i 1).val = j.val) :
    val_main_v120 (F := Ideal) x0 x1 x2 x3 x4 x5 x6 x7 x8 x9 x10 x11 x12 x13 x14 x15 x16 x17 x18 x19 x20 i = outOf (hiddenAfter (fun l => val_main_v84 (F := Ideal) x2 x7 x8 (ix2 p l)) (val_main_v85 (F := Ideal) x8 (ix1 p)) (fun l k => x13 (ix2 l k)) (fun k => x14 (ix1 k))) (fun k j => x19 (ix2 k j)) (fun j => x20 (ix1 j)) j := by
  unfold val_main_v120
  refine (concatenate_apply_piece (0 : Fin S170000x64.rank) _ _ i 2 (by simp) S100000x64
    (val_main_v119 (F := Ideal) x2 x7 x8 x13 x14 x19 x20) rfl rfl 70000 rfl (ix2 p j) (fun b hb => ?_) h0).trans
    (head_pod_after x2 x7 x8 x13 x14 x19 x20 p j)
  match b with
  | ⟨0, _⟩ => exact absurd rfl hb
  | ⟨1, _⟩ => exact h1.symm

end Cert.ReferenceIdeal.Result

end
-- ==== Proof.Bridge.lean ====
/-
  The kernel's result array is the reference's.

  After the third region the shared result holds, on each head's rows, that head of the arrays its region found, and
  those arrays are the reference's own stages of the launch memory. Row by row: a row from 70000 on was written by the
  third region and is the third head at the row minus 70000; a row from 50000 to 69999 was left by the third region as
  the second wrote it; a row below 50000 was left by both as the first wrote it. The reference's result is the same
  three heads joined along the rows, each rewritten with its degree factor after the first product.
-/
import proofs.«156169_j3143916060812_2_alg».proof.Proof.Blocks
import proofs.«156169_j3143916060812_2_alg».proof.Proof.Entry
import proofs.«156169_j3143916060812_2_alg».proof.Proof.RefResult
import Idealize.ShloMosaic.Lib.Pipeline.Value

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.KernelIdeal.Entry Cert.HeteroConv

/-! ## The re-laid column and rows read at an index -/

theorem col_cast_50000 (y : S50000.Idx → EReal) (p : Fin 50000) :
    shapeCast S50000x1 y shapeCasts_S50000_S50000x1 (ix2 p 0) = y (ix1 p) :=
  shapeCast_apply y _ (ix2 p 0) (ix1 p) (by
    rw [Shape.rowMajor_val_one, Shape.rowMajor_val_two]
    show p.val = p.val * 1 + 0
    omega)

theorem col_cast_20000 (y : S20000.Idx → EReal) (p : Fin 20000) :
    shapeCast S20000x1 y shapeCasts_S20000_S20000x1 (ix2 p 0) = y (ix1 p) :=
  shapeCast_apply y _ (ix2 p 0) (ix1 p) (by
    rw [Shape.rowMajor_val_one, Shape.rowMajor_val_two]
    show p.val = p.val * 1 + 0
    omega)

theorem col_cast_100000 (y : S100000.Idx → EReal) (p : Fin 100000) :
    shapeCast S100000x1 y shapeCasts_S100000_S100000x1 (ix2 p 0) = y (ix1 p) :=
  shapeCast_apply y _ (ix2 p 0) (ix1 p) (by
    rw [Shape.rowMajor_val_one, Shape.rowMajor_val_two]
    show p.val = p.val * 1 + 0
    omega)

theorem row_cast_128 (b : S128.Idx → EReal) (k : Fin 128) :
    shapeCast S1x128 b shapeCasts_S128_S1x128 (ix2 0 k) = b (ix1 k) :=
  shapeCast_apply b _ (ix2 0 k) (ix1 k) (by
    rw [Shape.rowMajor_val_one, Shape.rowMajor_val_two]
    show k.val = 0 * 128 + k.val
    omega)

theorem row_cast_64 (b : S64.Idx → EReal) (k : Fin 64) :
    shapeCast S1x64 b shapeCasts_S64_S1x64 (ix2 0 k) = b (ix1 k) :=
  shapeCast_apply b _ (ix2 0 k) (ix1 k) (by
    rw [Shape.rowMajor_val_one, Shape.rowMajor_val_two]
    show k.val = 0 * 64 + k.val
    omega)

/-! ## A region's value at a row it writes -/

/-- Region 0's value at a row it writes, with the column and the two rows read through their re-layings. -/
theorem G0_at (A : S50000x128.Idx → EReal) (y : S50000.Idx → EReal) (W1 : S128x128.Idx → EReal) (b1 : S128.Idx → EReal)
    (W2 : S128x64.Idx → EReal) (b2 : S64.Idx → EReal) (i : S170000x64.Idx) (p : Fin 50000) (j : Fin 64)
    (h0 : 0 + p.val = (i 0).val) (h1 : (i 1).val = j.val) :
    Blocks.G0 A (shapeCast S50000x1 y shapeCasts_S50000_S50000x1) W1 (shapeCast S1x128 b1 shapeCasts_S128_S1x128) W2
        (shapeCast S1x64 b2 shapeCasts_S64_S1x64) i
      = outOf (hiddenAfter (fun l => A (ix2 p l)) (y (ix1 p)) (fun l k => W1 (ix2 l k)) (fun k => b1 (ix1 k)))
          (fun k j => W2 (ix2 k j)) (fun j => b2 (ix1 j)) j := by
  have hr : Blocks.row0 i = p := Fin.ext (by
    show ((i 0).val - 0) % 50000 = p.val
    have := p.isLt
    omega)
  have hj : (⟨(i 1).val, (i 1).isLt⟩ : Fin 64) = j := Fin.ext h1
  unfold Blocks.G0
  rw [hr, hj, col_cast_50000]
  simp only [row_cast_128, row_cast_64]

/-- Region 1's value at a row it writes, with the column and the two rows read through their re-layings. -/
theorem G1_at (A : S20000x128.Idx → EReal) (y : S20000.Idx → EReal) (W1 : S128x128.Idx → EReal) (b1 : S128.Idx → EReal)
    (W2 : S128x64.Idx → EReal) (b2 : S64.Idx → EReal) (i : S170000x64.Idx) (p : Fin 20000) (j : Fin 64)
    (h0 : 50000 + p.val = (i 0).val) (h1 : (i 1).val = j.val) :
    Blocks.G1 A (shapeCast S20000x1 y shapeCasts_S20000_S20000x1) W1 (shapeCast S1x128 b1 shapeCasts_S128_S1x128) W2
        (shapeCast S1x64 b2 shapeCasts_S64_S1x64) i
      = outOf (hiddenAfter (fun l => A (ix2 p l)) (y (ix1 p)) (fun l k => W1 (ix2 l k)) (fun k => b1 (ix1 k)))
          (fun k j => W2 (ix2 k j)) (fun j => b2 (ix1 j)) j := by
  have hr : Blocks.row1 i = p := Fin.ext (by
    show ((i 0).val - 50000) % 20000 = p.val
    have := p.isLt
    omega)
  have hj : (⟨(i 1).val, (i 1).isLt⟩ : Fin 64) = j := Fin.ext h1
  unfold Blocks.G1
  rw [hr, hj, col_cast_20000]
  simp only [row_cast_128, row_cast_64]

/-- Region 2's value at a row it writes, with the column and the two rows read through their re-layings. -/
theorem G2_at (A : S100000x128.Idx → EReal) (y : S100000.Idx → EReal) (W1 : S128x128.Idx → EReal) (b1 : S128.Idx → EReal)
    (W2 : S128x64.Idx → EReal) (b2 : S64.Idx → EReal) (i : S170000x64.Idx) (p : Fin 100000) (j : Fin 64)
    (h0 : 70000 + p.val = (i 0).val) (h1 : (i 1).val = j.val) :
    Blocks.G2 A (shapeCast S100000x1 y shapeCasts_S100000_S100000x1) W1 (shapeCast S1x128 b1 shapeCasts_S128_S1x128) W2
        (shapeCast S1x64 b2 shapeCasts_S64_S1x64) i
      = outOf (hiddenAfter (fun l => A (ix2 p l)) (y (ix1 p)) (fun l k => W1 (ix2 l k)) (fun k => b1 (ix1 k)))
          (fun k j => W2 (ix2 k j)) (fun j => b2 (ix1 j)) j := by
  have hr : Blocks.row2 i = p := Fin.ext (by
    show ((i 0).val - 70000) % 100000 = p.val
    have := p.isLt
    omega)
  have hj : (⟨(i 1).val, (i 1).isLt⟩ : Fin 64) = j := Fin.ext h1
  unfold Blocks.G2
  rw [hr, hj, col_cast_100000]
  simp only [row_cast_128, row_cast_64]

/-! ## The result array -/

variable (m : (ℓ : Loc nD τ sig) → Buf (Elt Ideal) ℓ) (ρ : Dev nD → PrngReg)

set_option maxHeartbeats 2000000 in
/-- THE KERNEL'S RESULT ARRAY after the run is the reference's result of the same launch contents, entry by entry. -/
theorem result_eq (c : Dev nD) :
    (W18 m ρ c (Proc.devRef .tc main_v84) : S170000x64.Idx → EReal)
      = Cert.ReferenceIdeal.Read.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  funext i
  have hi0 : (i 0).val < 170000 := (i 0).isLt
  rw [show W18 m ρ c (Proc.devRef .tc main_v84) = (dat2 (V17 m ρ) c).arrAt 7 cfg2.N from W18_arr m ρ c 7,
    Blocks.final2 (V17 m ρ) c]
  beta_reduce
  by_cases c2 : 70000 ≤ (i 0).val ∧ (i 0).val < 170000
  · rw [if_pos c2]
    have e0 := at17_v70 m ρ c
    have e1 := at17_v83 m ρ c
    have e2 := at17_arg13 m ρ c
    have e3 := at17_v81 m ρ c
    have e4 := at17_arg19 m ρ c
    have e5 := at17_v82 m ρ c
    obtain ⟨p, hp⟩ : ∃ p : Fin 100000, 70000 + p.val = (i 0).val := ⟨⟨(i 0).val - 70000, by omega⟩, by show 70000 + ((i 0).val - 70000) = _; omega⟩
    rw [show V17 m ρ c (Pipeline.arrRef spec2 0) = _ from e0, show V17 m ρ c (Pipeline.arrRef spec2 1) = _ from e1,
      show V17 m ρ c (Pipeline.arrRef spec2 2) = _ from e2, show V17 m ρ c (Pipeline.arrRef spec2 3) = _ from e3,
      show V17 m ρ c (Pipeline.arrRef spec2 4) = _ from e4, show V17 m ρ c (Pipeline.arrRef spec2 5) = _ from e5]
    exact (G2_at _ _ _ _ _ _ i p ⟨(i 1).val, (i 1).isLt⟩ hp rfl).trans
      (Cert.ReferenceIdeal.Result.result_pod (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) i p ⟨(i 1).val, (i 1).isLt⟩ hp rfl).symm
  · rw [if_neg c2, show V17 m ρ c (Pipeline.arrRef spec2 7) = _ from at17_v84 m ρ c, Blocks.final1 (V15 m ρ) c]
    beta_reduce
    by_cases c1 : 50000 ≤ (i 0).val ∧ (i 0).val < 70000
    · rw [if_pos c1]
      have e0 := at15_v46 m ρ c
      have e1 := at15_v79 m ρ c
      have e2 := at15_arg11 m ρ c
      have e3 := at15_v77 m ρ c
      have e4 := at15_arg17 m ρ c
      have e5 := at15_v78 m ρ c
      obtain ⟨p, hp⟩ : ∃ p : Fin 20000, 50000 + p.val = (i 0).val := ⟨⟨(i 0).val - 50000, by omega⟩, by show 50000 + ((i 0).val - 50000) = _; omega⟩
      rw [show V15 m ρ c (Pipeline.arrRef spec1 0) = _ from e0, show V15 m ρ c (Pipeline.arrRef spec1 1) = _ from e1,
        show V15 m ρ c (Pipeline.arrRef spec1 2) = _ from e2, show V15 m ρ c (Pipeline.arrRef spec1 3) = _ from e3,
        show V15 m ρ c (Pipeline.arrRef spec1 4) = _ from e4, show V15 m ρ c (Pipeline.arrRef spec1 5) = _ from e5]
      exact (G1_at _ _ _ _ _ _ i p ⟨(i 1).val, (i 1).isLt⟩ hp rfl).trans
        (Cert.ReferenceIdeal.Result.result_node (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) i p ⟨(i 1).val, (i 1).isLt⟩ hp rfl).symm
    · rw [if_neg c1, show V15 m ρ c (Pipeline.arrRef spec1 7) = _ from at15_v80 m ρ c, Blocks.final0 (V13 m ρ) c]
      beta_reduce
      have c0 : 0 ≤ (i 0).val ∧ (i 0).val < 50000 := ⟨Nat.zero_le _, by omega⟩
      rw [if_pos c0]
      have e0 := at13_v22 m ρ c
      have e1 := at13_v75 m ρ c
      have e2 := at13_arg9 m ρ c
      have e3 := at13_v73 m ρ c
      have e4 := at13_arg15 m ρ c
      have e5 := at13_v74 m ρ c
      obtain ⟨p, hp⟩ : ∃ p : Fin 50000, 0 + p.val = (i 0).val := ⟨⟨(i 0).val - 0, by omega⟩, by show 0 + ((i 0).val - 0) = _; omega⟩
      rw [show V13 m ρ c (Pipeline.arrRef spec0 0) = _ from e0, show V13 m ρ c (Pipeline.arrRef spec0 1) = _ from e1,
        show V13 m ρ c (Pipeline.arrRef spec0 2) = _ from e2, show V13 m ρ c (Pipeline.arrRef spec0 3) = _ from e3,
        show V13 m ρ c (Pipeline.arrRef spec0 4) = _ from e4, show V13 m ρ c (Pipeline.arrRef spec0 5) = _ from e5]
      exact (G0_at _ _ _ _ _ _ i p ⟨(i 1).val, (i 1).isLt⟩ hp rfl).trans
        (Cert.ReferenceIdeal.Result.result_svc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) i p ⟨(i 1).val, (i 1).isLt⟩ hp rfl).symm

end Cert.Bridge

end
-- ==== Proof.lean ====
/-
  The certificate of a heterogeneous graph-convolution layer computed head by head into one shared buffer, against the
  plain formulation that joins three separately computed heads.

  Both programs aggregate, per edge type, the source-normalised features along the edges onto the destinations. The
  reference then scales each destination row by its degree factor, applies the head's weights and bias, the leaky
  rectifier and the output layer, and joins the three heads along the rows. The kernel runs one region per head that
  applies the degree factor AFTER the first product and writes the head into its own rows of a buffer shared by the
  three regions. On the extended reals the two agree because the degree factor — the reciprocal square root of a degree
  clipped below at one — is a nonnegative real, and such a factor comes out of any sum; nothing is asked of the
  aggregated features or of the weights, so the finiteness of the inputs is not used for the values.

  The three frames are the generated ones (the reference's is its generated run with the result dropped); the
  idealization rewrote nothing, so it is preserved trivially.
-/
import proofs.«156169_j3143916060812_2_alg».proof.Defs
import proofs.«156169_j3143916060812_2_alg».proof.Proof.Gen.Kernel
import proofs.«156169_j3143916060812_2_alg».proof.Proof.Gen.Kernel.Skeleton
import proofs.«156169_j3143916060812_2_alg».proof.Proof.Gen.Kernel.Launch
import proofs.«156169_j3143916060812_2_alg».proof.Proof.Gen.Kernel.Points
import proofs.«156169_j3143916060812_2_alg».proof.Proof.Gen.Kernel.Frame
import proofs.«156169_j3143916060812_2_alg».proof.Proof.Gen.KernelIdeal
import proofs.«156169_j3143916060812_2_alg».proof.Proof.Gen.KernelIdeal.Skeleton
import proofs.«156169_j3143916060812_2_alg».proof.Proof.Gen.KernelIdeal.Launch
import proofs.«156169_j3143916060812_2_alg».proof.Proof.Gen.KernelIdeal.Points
import proofs.«156169_j3143916060812_2_alg».proof.Proof.Gen.KernelIdeal.Frame
import proofs.«156169_j3143916060812_2_alg».proof.Proof.Gen.ReferenceIdeal
import proofs.«156169_j3143916060812_2_alg».proof.Proof.Gen.ReferenceIdeal.Run
import proofs.«156169_j3143916060812_2_alg».proof.Proof.Gen.ReferenceIdeal.Read
import proofs.«156169_j3143916060812_2_alg».proof.Proof.Gen.Pre_finite_inputs
import proofs.«156169_j3143916060812_2_alg».proof.Proof.RunNamed
import proofs.«156169_j3143916060812_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the same result array: the kernel's is the fold's value at the result buffer, which is the
    reference's result of the same argument arrays. -/
theorem algebraic : Cert.algebraic_KernelIdeal_ReferenceIdeal := by
  intro m ρ m' ρ' _ hagree
  refine ⟨fun c => Cert.KernelIdeal.Gen.W18 m ρ c (Proc.devRef .tc Cert.KernelIdeal.main_v84),
    Cert.KernelIdeal.Final.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v120_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2]
  exact (Cert.Bridge.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
